-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2x207x64 : Shape := ⟨4, ![1024, 2, 207, 64]⟩
abbrev S288x1722 : Shape := ⟨2, ![288, 1722]⟩
abbrev S288x207 : Shape := ⟨2, ![288, 207]⟩
abbrev S1024 : Shape := ⟨1, ![1024]⟩
abbrev S1722 : Shape := ⟨1, ![1722]⟩
abbrev S_ : Shape := ⟨0, ![]⟩

class Facts : Prop where
  bcast_S_S1024x2x207x64 : S_.BroadcastsInDim S1024x2x207x64 (![] : Fin 0 → Fin S1024x2x207x64.rank)
  reducesTo_S1024x2x207x64_S_d0_1_2_3 : S1024x2x207x64.ReducesTo [0, 1, 2, 3] S_
  h_S_ : 0 < S_.numel
  bcast_S_S288x1722 : S_.BroadcastsInDim S288x1722 (![] : Fin 0 → Fin S288x1722.rank)
  reducesTo_S288x1722_S_d0_1 : S288x1722.ReducesTo [0, 1] S_
  bcast_S_S288x207 : S_.BroadcastsInDim S288x207 (![] : Fin 0 → Fin S288x207.rank)
  reducesTo_S288x207_S_d0_1 : S288x207.ReducesTo [0, 1] S_

variable [Facts]

def fn_part1 {F : FTy → Type} [FloatOps F] (main_v13 : IVec S_ 1) (main_v16 : IVec S288x207 1) : IVec S_ 1 :=
  let main_c_5 : IVec S_ 1 := constantI S_ 1 1#1
  let main_v17 : IVec S_ 1 := (fun x v => Host.reduce IntOp.andi x v reducesTo_S288x207_S_d0_1 h_S_) main_v16 main_c_5
  let main_v18 : IVec S_ 1 := andi main_v13 main_v17
  main_v18

def fn {F : FTy → Type} [FloatOps F] (main_arg0 : FVec F S1024x2x207x64 .f32) (main_arg1 : FVec F S288x1722 .f32) (main_arg2 : FVec F S288x207 .f32) (main_arg3 : FVec F S288x207 .f32) (main_arg4 : IVec S1024 32) (main_arg5 : IVec S1722 32) (main_arg6 : IVec S1722 32) : IVec S_ 1 :=
  let main_v0 : FVec F S1024x2x207x64 .f32 := Host.absf main_arg0
  let main_cst : FVec F S_ .f32 := constant S_ .f32 0x7F800000#32
  let main_v1 : FVec F S1024x2x207x64 .f32 := broadcastInDim S1024x2x207x64 ![] bcast_S_S1024x2x207x64 main_cst
  let main_v2 : IVec S1024x2x207x64 1 := cmpf .olt main_v0 main_v1
  let main_c : IVec S_ 1 := constantI S_ 1 1#1
  let main_v3 : IVec S_ 1 := (fun x v => Host.reduce IntOp.andi x v reducesTo_S1024x2x207x64_S_d0_1_2_3 h_S_) main_v2 main_c
  let main_v4 : FVec F S288x1722 .f32 := Host.absf main_arg1
  let main_cst_0 : FVec F S_ .f32 := constant S_ .f32 0x7F800000#32
  let main_v5 : FVec F S288x1722 .f32 := broadcastInDim S288x1722 ![] bcast_S_S288x1722 main_cst_0
  let main_v6 : IVec S288x1722 1 := cmpf .olt main_v4 main_v5
  let main_c_1 : IVec S_ 1 := constantI S_ 1 1#1
  let main_v7 : IVec S_ 1 := (fun x v => Host.reduce IntOp.andi x v reducesTo_S288x1722_S_d0_1 h_S_) main_v6 main_c_1
  let main_v8 : IVec S_ 1 := andi main_v3 main_v7
  let main_v9 : FVec F S288x207 .f32 := Host.absf main_arg2
  let main_cst_2 : FVec F S_ .f32 := constant S_ .f32 0x7F800000#32
  let main_v10 : FVec F S288x207 .f32 := broadcastInDim S288x207 ![] bcast_S_S288x207 main_cst_2
  let main_v11 : IVec S288x207 1 := cmpf .olt main_v9 main_v10
  let main_c_3 : IVec S_ 1 := constantI S_ 1 1#1
  let main_v12 : IVec S_ 1 := (fun x v => Host.reduce IntOp.andi x v reducesTo_S288x207_S_d0_1 h_S_) main_v11 main_c_3
  let main_v13 : IVec S_ 1 := andi main_v8 main_v12
  let main_v14 : FVec F S288x207 .f32 := Host.absf main_arg3
  let main_cst_4 : FVec F S_ .f32 := constant S_ .f32 0x7F800000#32
  let main_v15 : FVec F S288x207 .f32 := broadcastInDim S288x207 ![] bcast_S_S288x207 main_cst_4
  let main_v16 : IVec S288x207 1 := cmpf .olt main_v14 main_v15
  fn_part1 (F := F) main_v13 main_v16
-- ==== Kernel.lean ====
abbrev S1024x2x207x64 : Shape := ⟨4, ![1024, 2, 207, 64]⟩
abbrev S288x1722 : Shape := ⟨2, ![288, 1722]⟩
abbrev S288x207 : Shape := ⟨2, ![288, 207]⟩
abbrev S1024 : Shape := ⟨1, ![1024]⟩
abbrev S1722 : Shape := ⟨1, ![1722]⟩
abbrev S1024x1x207x64 : Shape := ⟨4, ![1024, 1, 207, 64]⟩
abbrev S1024x207x64 : Shape := ⟨3, ![1024, 207, 64]⟩
abbrev S_ : Shape := ⟨0, ![]⟩
abbrev S288x207x207 : Shape := ⟨3, ![288, 207, 207]⟩
abbrev S1722x1 : Shape := ⟨2, ![1722, 1]⟩
abbrev S1722x2 : Shape := ⟨2, ![1722, 2]⟩
abbrev S207x207 : Shape := ⟨2, ![207, 207]⟩
abbrev S1x207x207 : Shape := ⟨3, ![1, 207, 207]⟩
abbrev S288x207x1 : Shape := ⟨3, ![288, 207, 1]⟩
abbrev S1024x1 : Shape := ⟨2, ![1024, 1]⟩
abbrev S1024x207x207 : Shape := ⟨3, ![1024, 207, 207]⟩
abbrev S1024x207 : Shape := ⟨2, ![1024, 207]⟩
abbrev S32x207x207 : Shape := ⟨3, ![32, 207, 207]⟩
abbrev S32x207x64 : Shape := ⟨3, ![32, 207, 64]⟩
abbrev S32x207 : Shape := ⟨2, ![32, 207]⟩
abbrev S32x207x1 : Shape := ⟨3, ![32, 207, 1]⟩

abbrev nBuf : Space → Nat
  | .hbm => 91
  | .vmem => 10
  | .smem => 0
  | _ => 0

abbrev bufTy : (tb : Table) → Fin (tcTables nBuf tb) → BufTy
  | .hbm, ⟨0, _⟩ => ⟨S1024x2x207x64, .f32⟩
  | .hbm, ⟨1, _⟩ => ⟨S288x1722, .f32⟩
  | .hbm, ⟨2, _⟩ => ⟨S288x207, .f32⟩
  | .hbm, ⟨3, _⟩ => ⟨S288x207, .f32⟩
  | .hbm, ⟨4, _⟩ => ⟨S1024, .i32⟩
  | .hbm, ⟨5, _⟩ => ⟨S1722, .i32⟩
  | .hbm, ⟨6, _⟩ => ⟨S1722, .i32⟩
  | .hbm, ⟨7, _⟩ => ⟨S1024x1x207x64, .f32⟩
  | .hbm, ⟨8, _⟩ => ⟨S1024x207x64, .f32⟩
  | .hbm, ⟨9, _⟩ => ⟨S_, .f32⟩
  | .hbm, ⟨10, _⟩ => ⟨S288x207x207, .f32⟩
  | .hbm, ⟨11, _⟩ => ⟨S_, .i32⟩
  | .hbm, ⟨12, _⟩ => ⟨S1722, .i32⟩
  | .hbm, ⟨13, _⟩ => ⟨S1722, .i1⟩
  | .hbm, ⟨14, _⟩ => ⟨S_, .i32⟩
  | .hbm, ⟨15, _⟩ => ⟨S1722, .i32⟩
  | .hbm, ⟨16, _⟩ => ⟨S1722, .i32⟩
  | .hbm, ⟨17, _⟩ => ⟨S1722, .i32⟩
  | .hbm, ⟨18, _⟩ => ⟨S_, .i32⟩
  | .hbm, ⟨19, _⟩ => ⟨S1722, .i32⟩
  | .hbm, ⟨20, _⟩ => ⟨S1722, .i1⟩
  | .hbm, ⟨21, _⟩ => ⟨S_, .i32⟩
  | .hbm, ⟨22, _⟩ => ⟨S1722, .i32⟩
  | .hbm, ⟨23, _⟩ => ⟨S1722, .i32⟩
  | .hbm, ⟨24, _⟩ => ⟨S1722, .i32⟩
  | .hbm, ⟨25, _⟩ => ⟨S1722x1, .i32⟩
  | .hbm, ⟨26, _⟩ => ⟨S1722x1, .i32⟩
  | .hbm, ⟨27, _⟩ => ⟨S1722x2, .i32⟩
  | .hbm, ⟨28, _⟩ => ⟨S288x207x207, .f32⟩
  | .hbm, ⟨29, _⟩ => ⟨S_, .i32⟩
  | .hbm, ⟨30, _⟩ => ⟨S1722, .i32⟩
  | .hbm, ⟨31, _⟩ => ⟨S1722, .i1⟩
  | .hbm, ⟨32, _⟩ => ⟨S_, .i32⟩
  | .hbm, ⟨33, _⟩ => ⟨S1722, .i32⟩
  | .hbm, ⟨34, _⟩ => ⟨S1722, .i32⟩
  | .hbm, ⟨35, _⟩ => ⟨S1722, .i32⟩
  | .hbm, ⟨36, _⟩ => ⟨S_, .i32⟩
  | .hbm, ⟨37, _⟩ => ⟨S1722, .i32⟩
  | .hbm, ⟨38, _⟩ => ⟨S1722, .i1⟩
  | .hbm, ⟨39, _⟩ => ⟨S_, .i32⟩
  | .hbm, ⟨40, _⟩ => ⟨S1722, .i32⟩
  | .hbm, ⟨41, _⟩ => ⟨S1722, .i32⟩
  | .hbm, ⟨42, _⟩ => ⟨S1722, .i32⟩
  | .hbm, ⟨43, _⟩ => ⟨S1722x1, .i32⟩
  | .hbm, ⟨44, _⟩ => ⟨S1722x1, .i32⟩
  | .hbm, ⟨45, _⟩ => ⟨S1722x2, .i32⟩
  | .hbm, ⟨46, _⟩ => ⟨S288x207x207, .f32⟩
  | .hbm, ⟨47, _⟩ => ⟨S_, .f32⟩
  | .hbm, ⟨48, _⟩ => ⟨S288x207, .f32⟩
  | .hbm, ⟨49, _⟩ => ⟨S207x207, .i32⟩
  | .hbm, ⟨50, _⟩ => ⟨S207x207, .i32⟩
  | .hbm, ⟨51, _⟩ => ⟨S_, .i32⟩
  | .hbm, ⟨52, _⟩ => ⟨S207x207, .i32⟩
  | .hbm, ⟨53, _⟩ => ⟨S207x207, .i32⟩
  | .hbm, ⟨54, _⟩ => ⟨S207x207, .i1⟩
  | .hbm, ⟨55, _⟩ => ⟨S207x207, .f32⟩
  | .hbm, ⟨56, _⟩ => ⟨S1x207x207, .f32⟩
  | .hbm, ⟨57, _⟩ => ⟨S288x207x1, .f32⟩
  | .hbm, ⟨58, _⟩ => ⟨S288x207x207, .f32⟩
  | .hbm, ⟨59, _⟩ => ⟨S288x207x207, .f32⟩
  | .hbm, ⟨60, _⟩ => ⟨S288x207x207, .f32⟩
  | .hbm, ⟨61, _⟩ => ⟨S288x207x207, .f32⟩
  | .hbm, ⟨62, _⟩ => ⟨S288x207x207, .bf16⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S1024x207x207, .bf16⟩
  | .hbm, ⟨72, _⟩ => ⟨S_, .i32⟩
  | .hbm, ⟨73, _⟩ => ⟨S1024, .i32⟩
  | .hbm, ⟨74, _⟩ => ⟨S1024, .i1⟩
  | .hbm, ⟨75, _⟩ => ⟨S_, .i32⟩
  | .hbm, ⟨76, _⟩ => ⟨S1024, .i32⟩
  | .hbm, ⟨77, _⟩ => ⟨S1024, .i32⟩
  | .hbm, ⟨78, _⟩ => ⟨S1024, .i32⟩
  | .hbm, ⟨79, _⟩ => ⟨S1024x1, .i32⟩
  | .hbm, ⟨80, _⟩ => ⟨S1024x207, .f32⟩
  | .hbm, ⟨81, _⟩ => ⟨S_, .i32⟩
  | .hbm, ⟨82, _⟩ => ⟨S1024, .i32⟩
  | .hbm, ⟨83, _⟩ => ⟨S1024, .i1⟩
  | .hbm, ⟨84, _⟩ => ⟨S_, .i32⟩
  | .hbm, ⟨85, _⟩ => ⟨S1024, .i32⟩
  | .hbm, ⟨86, _⟩ => ⟨S1024, .i32⟩
  | .hbm, ⟨87, _⟩ => ⟨S1024, .i32⟩
  | .hbm, ⟨88, _⟩ => ⟨S1024x1, .i32⟩
  | .hbm, ⟨89, _⟩ => ⟨S1024x207, .f32⟩
  | .hbm, ⟨90, _⟩ => ⟨S1024x207x64, .f32⟩
  | .local _ .vmem, ⟨0, _⟩ => ⟨S32x207x207, .bf16⟩
  | .local _ .vmem, ⟨1, _⟩ => ⟨S32x207x207, .bf16⟩
  | .local _ .vmem, ⟨2, _⟩ => ⟨S32x207x64, .f32⟩
  | .local _ .vmem, ⟨3, _⟩ => ⟨S32x207x64, .f32⟩
  | .local _ .vmem, ⟨4, _⟩ => ⟨S32x207, .f32⟩
  | .local _ .vmem, ⟨5, _⟩ => ⟨S32x207, .f32⟩
  | .local _ .vmem, ⟨6, _⟩ => ⟨S32x207, .f32⟩
  | .local _ .vmem, ⟨7, _⟩ => ⟨S32x207, .f32⟩
  | .local _ .vmem, ⟨8, _⟩ => ⟨S32x207x64, .f32⟩
  | .local _ .vmem, ⟨9, _⟩ => ⟨S32x207x64, .f32⟩
  | _, _ => ⟨S1024x2x207x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x207x207 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x207x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x207 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x207 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x207x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1024x2x207x64_S1024x1x207x64_0_0_0_0 : S1024x2x207x64.Slices ![0, 0, 0, 0] S1024x1x207x64
  shapeCasts_S1024x1x207x64_S1024x207x64 : S1024x1x207x64.ShapeCasts S1024x207x64
  bcast_S_S288x207x207 : S_.BroadcastsInDim S288x207x207 (![] : Fin 0 → Fin S288x207x207.rank)
  bcast_S_S1722 : S_.BroadcastsInDim S1722 (![] : Fin 0 → Fin S1722.rank)
  bcast_S1722_S1722x1_0 : S1722.BroadcastsInDim S1722x1 (![0] : Fin 1 → Fin S1722x1.rank)
  concatenates_S1722x1_S1722x1_S1722x2_d1 : Shape.Concatenates [S1722x1, S1722x1] S1722x2 1
  reducesTo_S288x207x207_S288x207_d1 : S288x207x207.ReducesTo [1] S288x207
  h_S_ : 0 < S_.numel
  bcast_S_S207x207 : S_.BroadcastsInDim S207x207 (![] : Fin 0 → Fin S207x207.rank)
  bcast_S207x207_S1x207x207_1_2 : S207x207.BroadcastsInDim S1x207x207 (![1, 2] : Fin 2 → Fin S1x207x207.rank)
  bcast_S288x207_S288x207x1_0_1 : S288x207.BroadcastsInDim S288x207x1 (![0, 1] : Fin 2 → Fin S288x207x1.rank)
  bcast_S288x207x1_S288x207x207_0_1_2 : S288x207x1.BroadcastsInDim S288x207x207 (![0, 1, 2] : Fin 3 → Fin S288x207x207.rank)
  bcast_S1x207x207_S288x207x207_0_1_2 : S1x207x207.BroadcastsInDim S288x207x207 (![0, 1, 2] : Fin 3 → Fin S288x207x207.rank)
  bitsLt_bf16_f32 : FTy.bits .bf16 < FTy.bits .f32
  bcast_S_S1024 : S_.BroadcastsInDim S1024 (![] : Fin 0 → Fin S1024.rank)
  bcast_S1024_S1024x1_0 : S1024.BroadcastsInDim S1024x1 (![0] : Fin 1 → Fin S1024x1.rank)
  inb_S32x207x207_S32x207x207_0_0_0 : ∀ a, (![0, 0, 0] : Fin 3 → Nat) a + S32x207x207.size a ≤ S32x207x207.size a
  h_S32x207x207 : 0 < S32x207x207.numel
  shapeCasts_S32x207x207_S32x207x207 : S32x207x207.ShapeCasts S32x207x207
  inb_S32x207x64_S32x207x64_0_0_0 : ∀ a, (![0, 0, 0] : Fin 3 → Nat) a + S32x207x64.size a ≤ S32x207x64.size a
  h_S32x207x64 : 0 < S32x207x64.numel
  shapeCasts_S32x207x64_S32x207x64 : S32x207x64.ShapeCasts S32x207x64
  inb_S32x207_S32x207_0_0 : ∀ a, (![0, 0] : Fin 2 → Nat) a + S32x207.size a ≤ S32x207.size a
  h_S32x207 : 0 < S32x207.numel
  shapeCasts_S32x207_S32x207 : S32x207.ShapeCasts S32x207
  shapeCasts_S32x207_S32x207x1 : S32x207.ShapeCasts S32x207x1
  broadcasts_S32x207x1_S32x207x64 : S32x207x1.Broadcasts S32x207x64
  scatter_S288x207x207_S1722x2_S288x1722_0_12_12_1_wf : ScatterDims.WF S288x207x207 S1722x2 S288x1722 [0] [1, 2] [1, 2] 1
  gather_S288x207x207_S1024x1_S1024x207x207_12_0_n_n_0_1_1207207_wf : GatherDims.WF S288x207x207 S1024x1 S1024x207x207 [1, 2] [0] [] [0] [] 1 ![1, 207, 207]
  gather_S288x207_S1024x1_S1024x207_1_0_n_n_0_1_1207_wf : GatherDims.WF S288x207 S1024x1 S1024x207 [1] [0] [] [0] [] 1 ![1, 207]
  dot_S32x207x207_S32x207x64_S32x207x64_2_1_1_2_0_0_wf : DotDims.WF S32x207x207 S32x207x64 S32x207x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x207x207.size a ≤ S1024x207x207.size a
  hwx0_0 : ∀ i : grid0.Coords, EltTy.bits .bf16 = 32 ∨ (Rect.block (s := S1024x207x207) S32x207x207.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x207x64.size a ≤ S1024x207x64.size a
  hwx0_1 : ∀ i : grid0.Coords, EltTy.bits .f32 = 32 ∨ (Rect.block (s := S1024x207x64) S32x207x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x207.size a ≤ S1024x207.size a
  hwx0_2 : ∀ i : grid0.Coords, EltTy.bits .f32 = 32 ∨ (Rect.block (s := S1024x207) S32x207.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x207.size a ≤ S1024x207.size a
  hwx0_3 : ∀ i : grid0.Coords, EltTy.bits .f32 = 32 ∨ (Rect.block (s := S1024x207) S32x207.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x207x64.size a ≤ S1024x207x64.size a
  hwx0_4 : ∀ i : grid0.Coords, EltTy.bits .f32 = 32 ∨ (Rect.block (s := S1024x207x64) S32x207x64.size (cc0_transform_4 i) (hinb0_4 i)).WholeWords (EltTy.packing .f32)

variable [Facts₀]

def scatter_S288x207x207_S1722x2_S288x1722_0_12_12_1 : ScatterDims S288x207x207 S1722x2 S288x1722 where
  updateWindowDims := [0]
  insertedWindowDims := [1, 2]
  scatterDimsToOperandDims := [1, 2]
  indexVectorDim := 1
  wf := scatter_S288x207x207_S1722x2_S288x1722_0_12_12_1_wf
def gather_S288x207x207_S1024x1_S1024x207x207_12_0_n_n_0_1_1207207 : GatherDims S288x207x207 S1024x1 S1024x207x207 where
  offsetDims := [1, 2]
  collapsedSliceDims := [0]
  operandBatchingDims := []
  startIndicesBatchingDims := []
  startIndexMap := [0]
  indexVectorDim := 1
  sliceSizes := ![1, 207, 207]
  wf := gather_S288x207x207_S1024x1_S1024x207x207_12_0_n_n_0_1_1207207_wf
def gather_S288x207_S1024x1_S1024x207_1_0_n_n_0_1_1207 : GatherDims S288x207 S1024x1 S1024x207 where
  offsetDims := [1]
  collapsedSliceDims := [0]
  operandBatchingDims := []
  startIndicesBatchingDims := []
  startIndexMap := [0]
  indexVectorDim := 1
  sliceSizes := ![1, 207]
  wf := gather_S288x207_S1024x1_S1024x207_1_0_n_n_0_1_1207_wf
def dot_S32x207x207_S32x207x64_S32x207x64_2_1_1_2_0_0 : DotDims S32x207x207 S32x207x64 S32x207x64 where
  lhsContracting := [2]
  rhsContracting := [1]
  lhsNonContracting := [1]
  rhsNonContracting := [2]
  lhsBatch := [0]
  rhsBatch := [0]
  wf := dot_S32x207x207_S32x207x64_S32x207x64_2_1_1_2_0_0_wf

abbrev win0_0 : Pipeline.Window sig grid0 :=
  Pipeline.Window.ofSpec (Memref.whole main_v51) S32x207x207.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x207x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S32x207.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S32x207.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v66) S32x207x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x2x207x64 : Shape := ⟨4, ![1024, 2, 207, 64]⟩
abbrev S288x1722 : Shape := ⟨2, ![288, 1722]⟩
abbrev S288x207 : Shape := ⟨2, ![288, 207]⟩
abbrev S1024 : Shape := ⟨1, ![1024]⟩
abbrev S1722 : Shape := ⟨1, ![1722]⟩
abbrev S1024x1x207x64 : Shape := ⟨4, ![1024, 1, 207, 64]⟩
abbrev S1024x207x64 : Shape := ⟨3, ![1024, 207, 64]⟩
abbrev S_ : Shape := ⟨0, ![]⟩
abbrev S1024x1 : Shape := ⟨2, ![1024, 1]⟩
abbrev S1024x1722 : Shape := ⟨2, ![1024, 1722]⟩
abbrev S1024x207x207 : Shape := ⟨3, ![1024, 207, 207]⟩
abbrev S1722x1 : Shape := ⟨2, ![1722, 1]⟩
abbrev S1722x2 : Shape := ⟨2, ![1722, 2]⟩
abbrev S1024x207 : Shape := ⟨2, ![1024, 207]⟩
abbrev S1024x207x1 : Shape := ⟨3, ![1024, 207, 1]⟩
abbrev S207x207 : Shape := ⟨2, ![207, 207]⟩
abbrev S1x207x207 : Shape := ⟨3, ![1, 207, 207]⟩

abbrev nBuf : Space → Nat
  | .hbm => 98
  | .vmem => 0
  | .smem => 0
  | _ => 0

abbrev bufTy : (tb : Table) → Fin (tcTables nBuf tb) → BufTy
  | .hbm, ⟨0, _⟩ => ⟨S1024x2x207x64, .f32⟩
  | .hbm, ⟨1, _⟩ => ⟨S288x1722, .f32⟩
  | .hbm, ⟨2, _⟩ => ⟨S288x207, .f32⟩
  | .hbm, ⟨3, _⟩ => ⟨S288x207, .f32⟩
  | .hbm, ⟨4, _⟩ => ⟨S1024, .i32⟩
  | .hbm, ⟨5, _⟩ => ⟨S1722, .i32⟩
  | .hbm, ⟨6, _⟩ => ⟨S1722, .i32⟩
  | .hbm, ⟨7, _⟩ => ⟨S1024x1x207x64, .f32⟩
  | .hbm, ⟨8, _⟩ => ⟨S1024x207x64, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x1722, .f32⟩
  | .hbm, ⟨18, _⟩ => ⟨S_, .f32⟩
  | .hbm, ⟨19, _⟩ => ⟨S1024x207x207, .f32⟩
  | .hbm, ⟨20, _⟩ => ⟨S_, .i32⟩
  | .hbm, ⟨21, _⟩ => ⟨S1722, .i32⟩
  | .hbm, ⟨22, _⟩ => ⟨S1722, .i1⟩
  | .hbm, ⟨23, _⟩ => ⟨S_, .i32⟩
  | .hbm, ⟨24, _⟩ => ⟨S1722, .i32⟩
  | .hbm, ⟨25, _⟩ => ⟨S1722, .i32⟩
  | .hbm, ⟨26, _⟩ => ⟨S1722, .i32⟩
  | .hbm, ⟨27, _⟩ => ⟨S_, .i32⟩
  | .hbm, ⟨28, _⟩ => ⟨S1722, .i32⟩
  | .hbm, ⟨29, _⟩ => ⟨S1722, .i1⟩
  | .hbm, ⟨30, _⟩ => ⟨S_, .i32⟩
  | .hbm, ⟨31, _⟩ => ⟨S1722, .i32⟩
  | .hbm, ⟨32, _⟩ => ⟨S1722, .i32⟩
  | .hbm, ⟨33, _⟩ => ⟨S1722, .i32⟩
  | .hbm, ⟨34, _⟩ => ⟨S1722x1, .i32⟩
  | .hbm, ⟨35, _⟩ => ⟨S1722x1, .i32⟩
  | .hbm, ⟨36, _⟩ => ⟨S1722x2, .i32⟩
  | .hbm, ⟨37, _⟩ => ⟨S1024x207x207, .f32⟩
  | .hbm, ⟨38, _⟩ => ⟨S_, .i32⟩
  | .hbm, ⟨39, _⟩ => ⟨S1722, .i32⟩
  | .hbm, ⟨40, _⟩ => ⟨S1722, .i1⟩
  | .hbm, ⟨41, _⟩ => ⟨S_, .i32⟩
  | .hbm, ⟨42, _⟩ => ⟨S1722, .i32⟩
  | .hbm, ⟨43, _⟩ => ⟨S1722, .i32⟩
  | .hbm, ⟨44, _⟩ => ⟨S1722, .i32⟩
  | .hbm, ⟨45, _⟩ => ⟨S_, .i32⟩
  | .hbm, ⟨46, _⟩ => ⟨S1722, .i32⟩
  | .hbm, ⟨47, _⟩ => ⟨S1722, .i1⟩
  | .hbm, ⟨48, _⟩ => ⟨S_, .i32⟩
  | .hbm, ⟨49, _⟩ => ⟨S1722, .i32⟩
  | .hbm, ⟨50, _⟩ => ⟨S1722, .i32⟩
  | .hbm, ⟨51, _⟩ => ⟨S1722, .i32⟩
  | .hbm, ⟨52, _⟩ => ⟨S1722x1, .i32⟩
  | .hbm, ⟨53, _⟩ => ⟨S1722x1, .i32⟩
  | .hbm, ⟨54, _⟩ => ⟨S1722x2, .i32⟩
  | .hbm, ⟨55, _⟩ => ⟨S1024x207x207, .f32⟩
  | .hbm, ⟨56, _⟩ => ⟨S_, .f32⟩
  | .hbm, ⟨57, _⟩ => ⟨S1024x207, .f32⟩
  | .hbm, ⟨58, _⟩ => ⟨S1024x207x1, .f32⟩
  | .hbm, ⟨59, _⟩ => ⟨S207x207, .i32⟩
  | .hbm, ⟨60, _⟩ => ⟨S207x207, .i32⟩
  | .hbm, ⟨61, _⟩ => ⟨S_, .i32⟩
  | .hbm, ⟨62, _⟩ => ⟨S207x207, .i32⟩
  | .hbm, ⟨63, _⟩ => ⟨S207x207, .i32⟩
  | .hbm, ⟨64, _⟩ => ⟨S207x207, .i1⟩
  | .hbm, ⟨65, _⟩ => ⟨S207x207, .f32⟩
  | .hbm, ⟨66, _⟩ => ⟨S1x207x207, .f32⟩
  | .hbm, ⟨67, _⟩ => ⟨S1024x207x207, .f32⟩
  | .hbm, ⟨68, _⟩ => ⟨S1024x207x207, .f32⟩
  | .hbm, ⟨69, _⟩ => ⟨S1024x207x207, .f32⟩
  | .hbm, ⟨70, _⟩ => ⟨S1024x207x207, .f32⟩
  | .hbm, ⟨71, _⟩ => ⟨S1024x207x64, .f32⟩
  | .hbm, ⟨72, _⟩ => ⟨S_, .i32⟩
  | .hbm, ⟨73, _⟩ => ⟨S1024, .i32⟩
  | .hbm, ⟨74, _⟩ => ⟨S1024, .i1⟩
  | .hbm, ⟨75, _⟩ => ⟨S_, .i32⟩
  | .hbm, ⟨76, _⟩ => ⟨S1024, .i32⟩
  | .hbm, ⟨77, _⟩ => ⟨S1024, .i32⟩
  | .hbm, ⟨78, _⟩ => ⟨S1024, .i32⟩
  | .hbm, ⟨79, _⟩ => ⟨S1024x1, .i32⟩
  | .hbm, ⟨80, _⟩ => ⟨S1024x207, .f32⟩
  | .hbm, ⟨81, _⟩ => ⟨S1024x207x1, .f32⟩
  | .hbm, ⟨82, _⟩ => ⟨S1024x207x64, .f32⟩
  | .hbm, ⟨83, _⟩ => ⟨S1024x207x64, .f32⟩
  | .hbm, ⟨84, _⟩ => ⟨S_, .i32⟩
  | .hbm, ⟨85, _⟩ => ⟨S1024, .i32⟩
  | .hbm, ⟨86, _⟩ => ⟨S1024, .i1⟩
  | .hbm, ⟨87, _⟩ => ⟨S_, .i32⟩
  | .hbm, ⟨88, _⟩ => ⟨S1024, .i32⟩
  | .hbm, ⟨89, _⟩ => ⟨S1024, .i32⟩
  | .hbm, ⟨90, _⟩ => ⟨S1024, .i32⟩
  | .hbm, ⟨91, _⟩ => ⟨S1024x1, .i32⟩
  | .hbm, ⟨92, _⟩ => ⟨S1024x207, .f32⟩
  | .hbm, ⟨93, _⟩ => ⟨S1024x207x1, .f32⟩
  | .hbm, ⟨94, _⟩ => ⟨S1024x207x64, .f32⟩
  | .hbm, ⟨95, _⟩ => ⟨S1024x207x64, .f32⟩
  | .hbm, ⟨96, _⟩ => ⟨S1024x207x64, .f32⟩
  | .hbm, ⟨97, _⟩ => ⟨S1024x207x64, .f32⟩
  | _, _ => ⟨S1024x2x207x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]

class Facts₀ : Prop where
  slices_S1024x2x207x64_S1024x1x207x64_0_0_0_0 : S1024x2x207x64.Slices ![0, 0, 0, 0] S1024x1x207x64
  shapeCasts_S1024x1x207x64_S1024x207x64 : S1024x1x207x64.ShapeCasts S1024x207x64
  bcast_S_S1024 : S_.BroadcastsInDim S1024 (![] : Fin 0 → Fin S1024.rank)
  bcast_S1024_S1024x1_0 : S1024.BroadcastsInDim S1024x1 (![0] : Fin 1 → Fin S1024x1.rank)
  bcast_S_S1024x207x207 : S_.BroadcastsInDim S1024x207x207 (![] : Fin 0 → Fin S1024x207x207.rank)
  bcast_S_S1722 : S_.BroadcastsInDim S1722 (![] : Fin 0 → Fin S1722.rank)
  bcast_S1722_S1722x1_0 : S1722.BroadcastsInDim S1722x1 (![0] : Fin 1 → Fin S1722x1.rank)
  concatenates_S1722x1_S1722x1_S1722x2_d1 : Shape.Concatenates [S1722x1, S1722x1] S1722x2 1
  reducesTo_S1024x207x207_S1024x207_d1 : S1024x207x207.ReducesTo [1] S1024x207
  h_S_ : 0 < S_.numel
  bcast_S1024x207_S1024x207x1_0_1 : S1024x207.BroadcastsInDim S1024x207x1 (![0, 1] : Fin 2 → Fin S1024x207x1.rank)
  bcast_S_S207x207 : S_.BroadcastsInDim S207x207 (![] : Fin 0 → Fin S207x207.rank)
  bcast_S207x207_S1x207x207_1_2 : S207x207.BroadcastsInDim S1x207x207 (![1, 2] : Fin 2 → Fin S1x207x207.rank)
  bcast_S1024x207x1_S1024x207x207_0_1_2 : S1024x207x1.BroadcastsInDim S1024x207x207 (![0, 1, 2] : Fin 3 → Fin S1024x207x207.rank)
  bcast_S1x207x207_S1024x207x207_0_1_2 : S1x207x207.BroadcastsInDim S1024x207x207 (![0, 1, 2] : Fin 3 → Fin S1024x207x207.rank)
  bcast_S1024x207x1_S1024x207x64_0_1_2 : S1024x207x1.BroadcastsInDim S1024x207x64 (![0, 1, 2] : Fin 3 → Fin S1024x207x64.rank)
  gather_S288x1722_S1024x1_S1024x1722_1_0_n_n_0_1_11722_wf : GatherDims.WF S288x1722 S1024x1 S1024x1722 [1] [0] [] [0] [] 1 ![1, 1722]
  scatter_S1024x207x207_S1722x2_S1024x1722_0_12_12_1_wf : ScatterDims.WF S1024x207x207 S1722x2 S1024x1722 [0] [1, 2] [1, 2] 1
  dot_S1024x207x207_S1024x207x64_S1024x207x64_2_1_1_2_0_0_wf : DotDims.WF S1024x207x207 S1024x207x64 S1024x207x64 [2] [1] [1] [2] [0] [0]
  gather_S288x207_S1024x1_S1024x207_1_0_n_n_0_1_1207_wf : GatherDims.WF S288x207 S1024x1 S1024x207 [1] [0] [] [0] [] 1 ![1, 207]

variable [Facts₀]

def gather_S288x1722_S1024x1_S1024x1722_1_0_n_n_0_1_11722 : GatherDims S288x1722 S1024x1 S1024x1722 where
  offsetDims := [1]
  collapsedSliceDims := [0]
  operandBatchingDims := []
  startIndicesBatchingDims := []
  startIndexMap := [0]
  indexVectorDim := 1
  sliceSizes := ![1, 1722]
  wf := gather_S288x1722_S1024x1_S1024x1722_1_0_n_n_0_1_11722_wf
def scatter_S1024x207x207_S1722x2_S1024x1722_0_12_12_1 : ScatterDims S1024x207x207 S1722x2 S1024x1722 where
  updateWindowDims := [0]
  insertedWindowDims := [1, 2]
  scatterDimsToOperandDims := [1, 2]
  indexVectorDim := 1
  wf := scatter_S1024x207x207_S1722x2_S1024x1722_0_12_12_1_wf
def dot_S1024x207x207_S1024x207x64_S1024x207x64_2_1_1_2_0_0 : DotDims S1024x207x207 S1024x207x64 S1024x207x64 where
  lhsContracting := [2]
  rhsContracting := [1]
  lhsNonContracting := [1]
  rhsNonContracting := [2]
  lhsBatch := [0]
  rhsBatch := [0]
  wf := dot_S1024x207x207_S1024x207x64_S1024x207x64_2_1_1_2_0_0_wf
def gather_S288x207_S1024x1_S1024x207_1_0_n_n_0_1_1207 : GatherDims S288x207 S1024x1 S1024x207 where
  offsetDims := [1]
  collapsedSliceDims := [0]
  operandBatchingDims := []
  startIndicesBatchingDims := []
  startIndexMap := [0]
  indexVectorDim := 1
  sliceSizes := ![1, 207]
  wf := gather_S288x207_S1024x1_S1024x207_1_0_n_n_0_1_1207_wf

class Facts : Prop extends Facts₀ where

variable [Facts]
-- ==== Proof.LibBatchedDot.lean ====
/-
  Batched matrix products of rank-3 arrays, batch axis first, read at a single entry on the extended reals.

  * Scores: [B, Q, D] · [B, K, D] → [B, Q, K], contracting the last axis of both operands: entry (b, q, k) is the
    sum over d of x (b, q, d) · y (b, k, d), the inner product of row q of batch b on the left with row k of
    batch b on the right.
  * Weighted sum: [B, Q, K] · [B, K, D] → [B, Q, D], contracting the left operand's last axis with the right
    operand's middle axis: entry (b, q, d) is the sum over k of x (b, q, k) · y (b, k, d).

  Both hold of the vector unit's product into a zero accumulator, because at the ideal values it is the exact sum
  over the contraction index, which for one contracted axis is one coordinate.
-/
import Idealize.ShloMosaic.Lib.ValueIdx
import Idealize.ShloMosaic.PureOps.Ideal.Laws

noncomputable section

open scoped BigOperators

namespace Cert.Lib.BatchedDot

open Idealize.ShloMosaic Idealize.ShloMosaic.ValueIdx

variable {B Q K D : ℕ}

/-! ## Scores: contract the last axes -/

/-- The dimension record of the scores product, with whatever proof of its well-formedness. -/
abbrev qkDims (wf : DotDims.WF ⟨3, ![B, Q, D]⟩ ⟨3, ![B, K, D]⟩ ⟨3, ![B, Q, K]⟩ [2] [2] [1] [1] [0] [0]) :
    DotDims ⟨3, ![B, Q, D]⟩ ⟨3, ![B, K, D]⟩ ⟨3, ![B, Q, K]⟩ := ⟨[2], [2], [1], [1], [0], [0], wf⟩

section
variable (wf : DotDims.WF ⟨3, ![B, Q, D]⟩ ⟨3, ![B, K, D]⟩ ⟨3, ![B, Q, K]⟩ [2] [2] [1] [1] [0] [0])

theorem qk_lhs0 (i : (⟨3, ![B, Q, K]⟩ : Shape).Idx) (c : (qkDims wf).contr.Idx) : ((qkDims wf).lhsIdx i c 0).val = (i 0).val := by
  unfold DotDims.lhsIdx
  rw [dif_pos (show (0 : Fin (⟨3, ![B, Q, D]⟩ : Shape).rank) ∈ (qkDims wf).lhsBatch from List.mem_singleton.mpr rfl)]
  rfl

theorem qk_lhs1 (i : (⟨3, ![B, Q, K]⟩ : Shape).Idx) (c : (qkDims wf).contr.Idx) : ((qkDims wf).lhsIdx i c 1).val = (i 1).val := by
  unfold DotDims.lhsIdx
  rw [dif_neg (show ¬(1 : Fin (⟨3, ![B, Q, D]⟩ : Shape).rank) ∈ (qkDims wf).lhsBatch from fun h => absurd (congrArg Fin.val (List.mem_singleton.mp h)) (show ¬(1 : ℕ) = 0 from by decide)),
    dif_pos (show (1 : Fin (⟨3, ![B, Q, D]⟩ : Shape).rank) ∈ (qkDims wf).lhsNonContracting from List.mem_singleton.mpr rfl)]
  rfl

theorem qk_lhs2 (i : (⟨3, ![B, Q, K]⟩ : Shape).Idx) (c : (qkDims wf).contr.Idx) :
    ((qkDims wf).lhsIdx i c 2).val = (c ⟨0, (show 0 < (qkDims wf).contr.rank from Nat.one_pos)⟩).val :=
  (qkDims wf).lhsIdx_val_of_single rfl i c

theorem qk_rhs0 (i : (⟨3, ![B, Q, K]⟩ : Shape).Idx) (c : (qkDims wf).contr.Idx) : ((qkDims wf).rhsIdx i c 0).val = (i 0).val := by
  unfold DotDims.rhsIdx
  rw [dif_pos (show (0 : Fin (⟨3, ![B, K, D]⟩ : Shape).rank) ∈ (qkDims wf).rhsBatch from List.mem_singleton.mpr rfl)]
  rfl

theorem qk_rhs1 (i : (⟨3, ![B, Q, K]⟩ : Shape).Idx) (c : (qkDims wf).contr.Idx) : ((qkDims wf).rhsIdx i c 1).val = (i 2).val := by
  unfold DotDims.rhsIdx
  rw [dif_neg (show ¬(1 : Fin (⟨3, ![B, K, D]⟩ : Shape).rank) ∈ (qkDims wf).rhsBatch from fun h => absurd (congrArg Fin.val (List.mem_singleton.mp h)) (show ¬(1 : ℕ) = 0 from by decide)),
    dif_pos (show (1 : Fin (⟨3, ![B, K, D]⟩ : Shape).rank) ∈ (qkDims wf).rhsNonContracting from List.mem_singleton.mpr rfl)]
  rfl

theorem qk_rhs2 (i : (⟨3, ![B, Q, K]⟩ : Shape).Idx) (c : (qkDims wf).contr.Idx) :
    ((qkDims wf).rhsIdx i c 2).val = (c ⟨0, (show 0 < (qkDims wf).contr.rank from Nat.one_pos)⟩).val :=
  (qkDims wf).rhsIdx_val_of_single rfl i c

/-- The sum over the contraction index, re-indexed by its one coordinate. -/
theorem qk_sum (x : (⟨3, ![B, Q, D]⟩ : Shape).Idx → EReal) (y : (⟨3, ![B, K, D]⟩ : Shape).Idx → EReal) (b : Fin B) (q : Fin Q) (k : Fin K) :
    ∑ c : (qkDims wf).contr.Idx, x ((qkDims wf).lhsIdx (ix3 b q k) c) * y ((qkDims wf).rhsIdx (ix3 b q k) c)
      = ∑ d : Fin D, x (ix3 b q d) * y (ix3 b k d) := by
  rw [← Equiv.sum_comp (contrEquiv1 (qkDims wf) D rfl rfl).symm]
  refine Finset.sum_congr rfl fun d _ => ?_
  have hd := contrEquiv1_symm_val (qkDims wf) D rfl rfl d
  have el : (qkDims wf).lhsIdx (ix3 b q k) ((contrEquiv1 (qkDims wf) D rfl rfl).symm d) = ix3 b q d :=
    funext fun a => Fin.ext (by
      match a with
      | ⟨0, _⟩ => exact qk_lhs0 wf _ _
      | ⟨1, _⟩ => exact qk_lhs1 wf _ _
      | ⟨2, _⟩ => exact (qk_lhs2 wf _ _).trans hd)
  have er : (qkDims wf).rhsIdx (ix3 b q k) ((contrEquiv1 (qkDims wf) D rfl rfl).symm d) = ix3 b k d :=
    funext fun a => Fin.ext (by
      match a with
      | ⟨0, _⟩ => exact qk_rhs0 wf _ _
      | ⟨1, _⟩ => exact qk_rhs1 wf _ _
      | ⟨2, _⟩ => exact (qk_rhs2 wf _ _).trans hd)
  rw [el, er]

end

/-- The scores product into the zero accumulator at entry (b, q, k). The record is any one with these six lists
    (a program's own record has them by unfolding). -/
theorem matmul_qk_apply {φ₁ φ₂ : FTy} (Dd : DotDims ⟨3, ![B, Q, D]⟩ ⟨3, ![B, K, D]⟩ ⟨3, ![B, Q, K]⟩)
    (hlc : Dd.lhsContracting = [2]) (hrc : Dd.rhsContracting = [2]) (hln : Dd.lhsNonContracting = [1])
    (hrn : Dd.rhsNonContracting = [1]) (hlb : Dd.lhsBatch = [0]) (hrb : Dd.rhsBatch = [0])
    (prec : Option ContractPrecision) (x : FVec Ideal ⟨3, ![B, Q, D]⟩ φ₁) (y : FVec Ideal ⟨3, ![B, K, D]⟩ φ₂)
    (b : Fin B) (q : Fin Q) (k : Fin K) :
    matmul Dd prec x y (constant (F := Ideal) ⟨3, ![B, Q, K]⟩ .f32 0x00000000#32) (ix3 b q k)
      = ∑ d : Fin D, x (ix3 b q d) * y (ix3 b k d) := by
  obtain ⟨lc, rc, ln, rn, lb, rb, wf⟩ := Dd
  dsimp only at hlc hrc hln hrn hlb hrb
  subst hlc hrc hln hrn hlb hrb
  exact (Ideal.matmul_constant_zero_apply _ prec x y (ix3 b q k)).trans (qk_sum wf x y b q k)

/-! ## Weighted sum: contract the left operand's last axis with the right operand's middle axis -/

/-- The dimension record of the weighted sum, with whatever proof of its well-formedness. -/
abbrev pvDims (wf : DotDims.WF ⟨3, ![B, Q, K]⟩ ⟨3, ![B, K, D]⟩ ⟨3, ![B, Q, D]⟩ [2] [1] [1] [2] [0] [0]) :
    DotDims ⟨3, ![B, Q, K]⟩ ⟨3, ![B, K, D]⟩ ⟨3, ![B, Q, D]⟩ := ⟨[2], [1], [1], [2], [0], [0], wf⟩

section
variable (wf : DotDims.WF ⟨3, ![B, Q, K]⟩ ⟨3, ![B, K, D]⟩ ⟨3, ![B, Q, D]⟩ [2] [1] [1] [2] [0] [0])

theorem pv_lhs0 (i : (⟨3, ![B, Q, D]⟩ : Shape).Idx) (c : (pvDims wf).contr.Idx) : ((pvDims wf).lhsIdx i c 0).val = (i 0).val := by
  unfold DotDims.lhsIdx
  rw [dif_pos (show (0 : Fin (⟨3, ![B, Q, K]⟩ : Shape).rank) ∈ (pvDims wf).lhsBatch from List.mem_singleton.mpr rfl)]
  rfl

theorem pv_lhs1 (i : (⟨3, ![B, Q, D]⟩ : Shape).Idx) (c : (pvDims wf).contr.Idx) : ((pvDims wf).lhsIdx i c 1).val = (i 1).val := by
  unfold DotDims.lhsIdx
  rw [dif_neg (show ¬(1 : Fin (⟨3, ![B, Q, K]⟩ : Shape).rank) ∈ (pvDims wf).lhsBatch from fun h => absurd (congrArg Fin.val (List.mem_singleton.mp h)) (show ¬(1 : ℕ) = 0 from by decide)),
    dif_pos (show (1 : Fin (⟨3, ![B, Q, K]⟩ : Shape).rank) ∈ (pvDims wf).lhsNonContracting from List.mem_singleton.mpr rfl)]
  rfl

theorem pv_lhs2 (i : (⟨3, ![B, Q, D]⟩ : Shape).Idx) (c : (pvDims wf).contr.Idx) :
    ((pvDims wf).lhsIdx i c 2).val = (c ⟨0, (show 0 < (pvDims wf).contr.rank from Nat.one_pos)⟩).val :=
  (pvDims wf).lhsIdx_val_of_single rfl i c

theorem pv_rhs0 (i : (⟨3, ![B, Q, D]⟩ : Shape).Idx) (c : (pvDims wf).contr.Idx) : ((pvDims wf).rhsIdx i c 0).val = (i 0).val := by
  unfold DotDims.rhsIdx
  rw [dif_pos (show (0 : Fin (⟨3, ![B, K, D]⟩ : Shape).rank) ∈ (pvDims wf).rhsBatch from List.mem_singleton.mpr rfl)]
  rfl

theorem pv_rhs1 (i : (⟨3, ![B, Q, D]⟩ : Shape).Idx) (c : (pvDims wf).contr.Idx) :
    ((pvDims wf).rhsIdx i c 1).val = (c ⟨0, (show 0 < (pvDims wf).contr.rank from Nat.one_pos)⟩).val :=
  (pvDims wf).rhsIdx_val_of_single rfl i c

theorem pv_rhs2 (i : (⟨3, ![B, Q, D]⟩ : Shape).Idx) (c : (pvDims wf).contr.Idx) : ((pvDims wf).rhsIdx i c 2).val = (i 2).val := by
  unfold DotDims.rhsIdx
  rw [dif_neg (show ¬(2 : Fin (⟨3, ![B, K, D]⟩ : Shape).rank) ∈ (pvDims wf).rhsBatch from fun h => absurd (congrArg Fin.val (List.mem_singleton.mp h)) (show ¬(2 : ℕ) = 0 from by decide)),
    dif_pos (show (2 : Fin (⟨3, ![B, K, D]⟩ : Shape).rank) ∈ (pvDims wf).rhsNonContracting from List.mem_singleton.mpr rfl)]
  rfl

/-- The sum over the contraction index, re-indexed by its one coordinate. -/
theorem pv_sum (x : (⟨3, ![B, Q, K]⟩ : Shape).Idx → EReal) (y : (⟨3, ![B, K, D]⟩ : Shape).Idx → EReal) (b : Fin B) (q : Fin Q) (d : Fin D) :
    ∑ c : (pvDims wf).contr.Idx, x ((pvDims wf).lhsIdx (ix3 b q d) c) * y ((pvDims wf).rhsIdx (ix3 b q d) c)
      = ∑ k : Fin K, x (ix3 b q k) * y (ix3 b k d) := by
  rw [← Equiv.sum_comp (contrEquiv1 (pvDims wf) K rfl rfl).symm]
  refine Finset.sum_congr rfl fun k _ => ?_
  have hk := contrEquiv1_symm_val (pvDims wf) K rfl rfl k
  have el : (pvDims wf).lhsIdx (ix3 b q d) ((contrEquiv1 (pvDims wf) K rfl rfl).symm k) = ix3 b q k :=
    funext fun a => Fin.ext (by
      match a with
      | ⟨0, _⟩ => exact pv_lhs0 wf _ _
      | ⟨1, _⟩ => exact pv_lhs1 wf _ _
      | ⟨2, _⟩ => exact (pv_lhs2 wf _ _).trans hk)
  have er : (pvDims wf).rhsIdx (ix3 b q d) ((contrEquiv1 (pvDims wf) K rfl rfl).symm k) = ix3 b k d :=
    funext fun a => Fin.ext (by
      match a with
      | ⟨0, _⟩ => exact pv_rhs0 wf _ _
      | ⟨1, _⟩ => exact (pv_rhs1 wf _ _).trans hk
      | ⟨2, _⟩ => exact pv_rhs2 wf _ _)
  rw [el, er]

end

/-- The weighted-sum product into the zero accumulator at entry (b, q, d). -/
theorem matmul_pv_apply {φ₁ φ₂ : FTy} (Dd : DotDims ⟨3, ![B, Q, K]⟩ ⟨3, ![B, K, D]⟩ ⟨3, ![B, Q, D]⟩)
    (hlc : Dd.lhsContracting = [2]) (hrc : Dd.rhsContracting = [1]) (hln : Dd.lhsNonContracting = [1])
    (hrn : Dd.rhsNonContracting = [2]) (hlb : Dd.lhsBatch = [0]) (hrb : Dd.rhsBatch = [0])
    (prec : Option ContractPrecision) (x : FVec Ideal ⟨3, ![B, Q, K]⟩ φ₁) (y : FVec Ideal ⟨3, ![B, K, D]⟩ φ₂)
    (b : Fin B) (q : Fin Q) (d : Fin D) :
    matmul Dd prec x y (constant (F := Ideal) ⟨3, ![B, Q, D]⟩ .f32 0x00000000#32) (ix3 b q d)
      = ∑ k : Fin K, x (ix3 b q k) * y (ix3 b k d) := by
  obtain ⟨lc, rc, ln, rn, lb, rb, wf⟩ := Dd
  dsimp only at hlc hrc hln hrn hlb hrb
  subst hlc hrc hln hrn hlb hrb
  exact (Ideal.matmul_constant_zero_apply _ prec x y (ix3 b q d)).trans (pv_sum wf x y b q d)

end Cert.Lib.BatchedDot

end
-- ==== Proof.LibLaneKeepdims.lean ====
/-
  A sum over the last axis of a rank-3 array [a, b, c] kept as a unit axis (jnp.sum(x, axis=-1, keepdims=True)) and
  spread back over that axis, read one operation at a time at an index given by its coordinates, over generic extents:

  * the vector unit's add-reduction over axis 2 at the exact extended reals is the sum over the last coordinate;
  * the shape cast [a, b] → [a, b, 1] reads (p, q, 0) at (p, q);
  * the broadcast [a, b, 1] → [a, b, c] reads (p, q, r) at (p, q, 0).

  Together: the spread group sum at (p, q, r) is the sum over k of the array at (p, q, k).
-/
import Idealize.ShloMosaic.PureOps.Ideal.Laws
import Idealize.ShloMosaic.Lib.ValueIdx
import Idealize.ShloMosaic.Lib.Pipeline.Value

noncomputable section

namespace Cert.LaneKeepdims

open Idealize.ShloMosaic Idealize.ShloMosaic.ValueIdx

variable {a b c : Nat}

/-- The add-reduction over the last axis of an [a, b, c] array, at the exact extended reals, read at (p, q): the sum over
    the last coordinate k of the array at (p, q, k). -/
theorem laneSum_apply (v : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ v acc h hφ hacc (ix2 p q) = ∑ k : Fin c, v (ix3 p q k) := by
  refine (Ideal.multiReduction_add_single v acc h hφ hacc (ix2 p q)).trans ?_
  refine Finset.sum_congr rfl fun k _ => congrArg v (funext fun d => Fin.ext ?_)
  match d with
  | ⟨0, _⟩ => rfl
  | ⟨1, _⟩ => rfl
  | ⟨2, _⟩ => rfl

/-- A reduced [a, b] array viewed with a unit last axis reads (p, q, 0) at (p, q). -/
theorem keepLane_apply {α : Type} (z : (⟨2, ![a, b]⟩ : Shape).Idx → α)
    (h : (⟨2, ![a, b]⟩ : Shape).ShapeCasts ⟨3, ![a, b, 1]⟩) (p : Fin a) (q : Fin b) (o : Fin 1) :
    shapeCast ⟨3, ![a, b, 1]⟩ z h (ix3 p q o) = z (ix2 p q) := by
  refine shapeCast_apply z h (ix3 p q o) (ix2 p q) ?_
  rw [Shape.rowMajor_val_two, Shape.rowMajor_val_three]
  have ho : o.val = 0 := by have := o.isLt; omega
  show p.val * b + q.val = (p.val * b + q.val) * 1 + o.val
  omega

/-- A column of group values [a, b, 1] spread along the last axis reads (p, q, r) at (p, q, 0). -/
theorem spreadLane_apply {α : Type} (y : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ y h (ix3 p q r) = y (ix3 p q (0 : Fin 1)) := by
  refine broadcastTo_apply y h (ix3 p q r) (ix3 p q (0 : Fin 1)) fun d => ?_
  match d with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : Nat) = if (1 : Nat) = 1 then 0 else r.val
    rw [if_pos rfl]

/-- The three together: the kept-and-spread lane sum of an [a, b, c] array at (p, q, r) is the sum over k of the array at
    (p, q, k). -/
theorem spreadLaneSum_apply (v : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ)
    (hk : (⟨2, ![a, b]⟩ : Shape).ShapeCasts ⟨3, ![a, b, 1]⟩)
    (hs : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ (multiReduction .add [2] ⟨2, ![a, b]⟩ v acc h hφ hacc) hk) hs (ix3 p q r)
      = ∑ k : Fin c, v (ix3 p q k) :=
  (spreadLane_apply _ hs p q r).trans ((keepLane_apply _ hk p q 0).trans (laneSum_apply v acc h hφ hacc p q))

end Cert.LaneKeepdims

end
-- ==== Proof.LibSegmentSum.lean ====
/-
  The host's accumulating float scatter over ROW indices, read at one element, at the ideal instance.

  `jax.ops.segment_sum(data, ids, num_segments = N)` lowers to a `stablehlo.scatter` with an `add` body whose
  scatter indices are the ids as an [E, 1] column: update row `e` is added onto operand row `ids[e]`, column by
  column, and a row whose id (read signed) is outside [0, N) is dropped. On the extended reals the result is an exact
  sum, so element (r, c) of the result is the operand's element plus the sum over ALL e of "update (e, c) if
  ids[e] = r, else 0". Two shapes of it are read here: a rank-2 operand [N, C] with [E, C] updates (`rows_apply`),
  and a rank-1 operand [N] with [E] updates (`flat_apply`). Both right-hand sides are the same kind of sum over
  `Fin E`, which is what lets a proof compare a scatter of concatenated columns with the scatters of the parts.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## When an update element lands on a given operand element -/

/-- An update element lands on operand element `i` exactly when, on every operand axis, the window's start plus the
    element's window coordinate is `i`'s coordinate: inside the operand then, and nowhere else. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have e := congrArg (fun f : s.Idx => (f a).val) (Option.some.inj h)
      have := hh a
      simp only at e
      omega
    · exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    have := h a
    show (d.start j idx a + d.window j a).toNat = (i a).val
    omega

/-- The scatter-index word that names the operand row of update row `e`, read signed. -/
abbrev rowOf {E w : Nat} (ids : IVec ⟨2, ![E, 1]⟩ w) (e : Fin E) : Int := (ids (ix2 e (0 : Fin 1))).toInt

/-- The sum of the entries `f e` over the update rows `e` whose id is `r`: one segment's sum. -/
def segSum {E N w : Nat} (ids : IVec ⟨2, ![E, 1]⟩ w) (f : Fin E → EReal) (r : Fin N) : EReal :=
  ∑ e : Fin E, if rowOf ids e = (r.val : Int) then f e else 0

theorem mem0 : (0 : Fin 2) ∈ ([0] : List (Fin 2)) := by decide
theorem nmem1 : (1 : Fin 2) ∉ ([0] : List (Fin 2)) := by decide
theorem kept0 : (0 : Fin 2) ∉ (List.finRange 2).filter (· ∉ ([0] : List (Fin 2))) := by decide
theorem kept1 : (1 : Fin 2) ∈ (List.finRange 2).filter (· ∉ ([0] : List (Fin 2))) := by decide
theorem mem0' : (0 : Fin 1) ∈ ([0] : List (Fin 1)) := by decide
theorem kept0' : (0 : Fin 1) ∉ (List.finRange 1).filter (· ∉ ([0] : List (Fin 1))) := by decide

/-! ## A rank-2 operand: rows of [E, C] updates added onto rows of [N, C] -/

section Rows
variable {N C E w : Nat} (wf : ScatterDims.WF ⟨2, ![N, C]⟩ ⟨2, ![E, 1]⟩ ⟨2, ![E, C]⟩ [1] [0] [0] 1)

/-- The dimension numbers of a row scatter: the updates' axis 1 is the window, operand axis 0 is inserted and is the
    one the index names, the index vector sits on the indices' axis 1. -/
abbrev rowsDims : ScatterDims ⟨2, ![N, C]⟩ ⟨2, ![E, 1]⟩ ⟨2, ![E, C]⟩ := ⟨[1], [0], [0], 1, wf⟩

theorem rows_start0 (ids : IVec ⟨2, ![E, 1]⟩ w) (e : Fin E) (c : Fin C) :
    (rowsDims wf).start (ix2 e c) ids 0 = rowOf ids e := by
  unfold ScatterDims.start
  refine (dif_pos mem0).trans ?_
  refine congrArg (fun z => (ids z).toInt) ?_
  funext b
  match b with
  | ⟨0, _⟩ => rfl
  | ⟨1, _⟩ => rfl

theorem rows_start1 (ids : IVec ⟨2, ![E, 1]⟩ w) (e : Fin E) (c : Fin C) :
    (rowsDims wf).start (ix2 e c) ids 1 = 0 := by
  unfold ScatterDims.start
  exact dif_neg nmem1

theorem rows_window0 (e : Fin E) (c : Fin C) : (rowsDims wf).window (ix2 e c) 0 = 0 := by
  unfold ScatterDims.window
  exact dif_neg kept0

theorem rows_window1 (e : Fin E) (c : Fin C) : (rowsDims wf).window (ix2 e c) 1 = c.val := by
  unfold ScatterDims.window
  exact (dif_pos kept1).trans rfl

/-- Update element (e, c) lands on operand element (r, c') exactly when row `e`'s id is `r` and the columns agree. -/
theorem rows_resultIdx (ids : IVec ⟨2, ![E, 1]⟩ w) (e : Fin E) (c : Fin C) (r : Fin N) (c' : Fin C) :
    (rowsDims wf).resultIdx? (ix2 e c) ids = some (ix2 r c') ↔ rowOf ids e = (r.val : Int) ∧ c = c' := by
  rw [resultIdx?_eq_some_iff]
  constructor
  · intro h
    have h0 : rowOf ids e + ((0 : Nat) : Int) = (r.val : Int) := by
      have := h 0; rw [rows_start0, rows_window0] at this; exact this
    have h1 : (0 : Int) + (c.val : Int) = (c'.val : Int) := by
      have := h 1; rw [rows_start1, rows_window1] at this; exact this
    exact ⟨by omega, Fin.ext (by omega)⟩
  · rintro ⟨hr, rfl⟩ a
    match a with
    | ⟨0, _⟩ =>
      show (rowsDims wf).start (ix2 e c) ids 0 + ((rowsDims wf).window (ix2 e c) 0 : Int) = (r.val : Int)
      rw [rows_start0, rows_window0]; omega
    | ⟨1, _⟩ =>
      show (rowsDims wf).start (ix2 e c) ids 1 + ((rowsDims wf).window (ix2 e c) 1 : Int) = (c.val : Int)
      rw [rows_start1, rows_window1]; omega

/-- ELEMENT (r, c) of a row scatter-add: the operand's element plus the segment sum of column `c` of the updates. -/
theorem rows_apply (x : (⟨2, ![N, C]⟩ : Shape).Idx → EReal) (ids : IVec ⟨2, ![E, 1]⟩ w)
    (upd : (⟨2, ![E, C]⟩ : Shape).Idx → EReal) (r : Fin N) (c : Fin C) :
    Ideal.hostScatterAdd (rowsDims wf) x ids upd (ix2 r c) = x (ix2 r c) + segSum ids (fun e => upd (ix2 e c)) r := by
  unfold Ideal.hostScatterAdd segSum
  refine congrArg (x (ix2 r c) + ·) ?_
  rw [Finset.sum_filter, sum_idx2]
  refine Finset.sum_congr rfl fun e _ => ?_
  simp only [rows_resultIdx]
  by_cases hit : rowOf ids e = (r.val : Int)
  · simp only [hit, true_and]
    rw [Finset.sum_ite_eq' Finset.univ c (fun c' => upd (ix2 e c'))]
    simp
  · simp [hit]

/-- The same for the host operation as a program prints it, with the program's own record of these dimension numbers. -/
theorem rows_apply_host (d : ScatterDims ⟨2, ![N, C]⟩ ⟨2, ![E, 1]⟩ ⟨2, ![E, C]⟩) (hd : d = rowsDims wf)
    (x : FVec Ideal ⟨2, ![N, C]⟩ .f32) (ids : IVec ⟨2, ![E, 1]⟩ w) (upd : FVec Ideal ⟨2, ![E, C]⟩ .f32) (r : Fin N) (c : Fin C) :
    Host.scatterAdd d x ids upd (ix2 r c) = x (ix2 r c) + segSum ids (fun e => upd (ix2 e c)) r := by
  subst hd
  exact rows_apply wf x ids upd r c

end Rows

/-! ## A rank-1 operand: [E] updates added onto [N] -/

section Flat
variable {N E w : Nat} (wf : ScatterDims.WF ⟨1, ![N]⟩ ⟨2, ![E, 1]⟩ ⟨1, ![E]⟩ [] [0] [0] 1)

/-- The dimension numbers of a scatter of scalars: no window axis, the operand's one axis inserted and named by the index. -/
abbrev flatDims : ScatterDims ⟨1, ![N]⟩ ⟨2, ![E, 1]⟩ ⟨1, ![E]⟩ := ⟨[], [0], [0], 1, wf⟩

theorem flat_start0 (ids : IVec ⟨2, ![E, 1]⟩ w) (e : Fin E) :
    (flatDims wf).start (ix1 e) ids 0 = rowOf ids e := by
  unfold ScatterDims.start
  refine (dif_pos mem0').trans ?_
  refine congrArg (fun z => (ids z).toInt) ?_
  funext b
  match b with
  | ⟨0, _⟩ => rfl
  | ⟨1, _⟩ => rfl

theorem flat_window0 (e : Fin E) : (flatDims wf).window (ix1 e) 0 = 0 := by
  unfold ScatterDims.window
  exact dif_neg kept0'

/-- Update element `e` lands on operand element `r` exactly when its id is `r`. -/
theorem flat_resultIdx (ids : IVec ⟨2, ![E, 1]⟩ w) (e : Fin E) (r : Fin N) :
    (flatDims wf).resultIdx? (ix1 e) ids = some (ix1 r) ↔ rowOf ids e = (r.val : Int) := by
  rw [resultIdx?_eq_some_iff]
  constructor
  · intro h
    have h0 : rowOf ids e + ((0 : Nat) : Int) = (r.val : Int) := by
      have := h 0; rw [flat_start0, flat_window0] at this; exact this
    omega
  · intro hr a
    match a with
    | ⟨0, _⟩ =>
      show (flatDims wf).start (ix1 e) ids 0 + ((flatDims wf).window (ix1 e) 0 : Int) = (r.val : Int)
      rw [flat_start0, flat_window0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- ELEMENT r of a scatter-add of scalars: the operand's element plus the segment sum of the updates. -/
theorem flat_apply (x : (⟨1, ![N]⟩ : Shape).Idx → EReal) (ids : IVec ⟨2, ![E, 1]⟩ w)
    (upd : (⟨1, ![E]⟩ : Shape).Idx → EReal) (r : Fin N) :
    Ideal.hostScatterAdd (flatDims wf) x ids upd (ix1 r) = x (ix1 r) + segSum ids (fun e => upd (ix1 e)) r := by
  unfold Ideal.hostScatterAdd segSum
  refine congrArg (x (ix1 r) + ·) ?_
  rw [Finset.sum_filter, sum_idx1]
  refine Finset.sum_congr rfl fun e _ => ?_
  simp only [flat_resultIdx]

/-- The same for the host operation as a program prints it, with the program's own record of these dimension numbers. -/
theorem flat_apply_host (d : ScatterDims ⟨1, ![N]⟩ ⟨2, ![E, 1]⟩ ⟨1, ![E]⟩) (hd : d = flatDims wf)
    (x : FVec Ideal ⟨1, ![N]⟩ .f32) (ids : IVec ⟨2, ![E, 1]⟩ w) (upd : FVec Ideal ⟨1, ![E]⟩ .f32) (r : Fin N) :
    Host.scatterAdd d x ids upd (ix1 r) = x (ix1 r) + segSum ids (fun e => upd (ix1 e)) r := by
  subst hd
  exact flat_apply wf x ids upd r

end Flat

end Cert.Lib.SegmentSum

end
-- ==== Proof.LibScatterPairs.lean ====
/-
  The host's accumulating float scatter of a BATCH of edge-weight rows into a batch of matrices, read at one element, at
  the ideal instance.

  `A.at[:, rows, cols].add(w)` for `A : [R, N, M]`, index vectors `rows, cols : [E]` and weights `w : [R, E]` lowers to a
  `stablehlo.scatter` with an `add` body whose scatter indices are the pairs (rows[e], cols[e]) as an [E, 2] array: the
  updates' axis 0 is the window (the batch axis, carried through unchanged), the operand's axes 1 and 2 are inserted
  and named by the two components of the index. Update (r, e) is added onto operand element (r, rows[e], cols[e]), and
  a pair which (read signed) leaves the matrix is dropped. On the extended reals the result is an exact sum, so
  element (r, a, v) is the operand's element plus the sum over ALL e of "w (r, e) if (rows[e], cols[e]) = (a, v), else 0":
  a function of row `r` of the weights alone (`pairSum`). That is what lets a proof exchange such a scatter with a
  selection of rows of the weights: scattering selected rows is selecting scattered matrices.
-/
import proofs.«172634_j90872918049150_2_alg».proof.Proof.LibSegmentSum
import Idealize.ShloMosaic.PureOps.Ideal
import Idealize.ShloMosaic.Lib.ValueIdx

noncomputable section

open scoped BigOperators

namespace Cert.Lib.ScatterPairs

open Idealize.ShloMosaic Idealize.ShloMosaic.ValueIdx

/-- The first component of index pair `e`, read signed: the matrix row it names. -/
abbrev rowOf {E w : Nat} (ids : IVec ⟨2, ![E, 2]⟩ w) (e : Fin E) : Int := (ids (ix2 e (0 : Fin 2))).toInt
/-- The second component of index pair `e`, read signed: the matrix column it names. -/
abbrev colOf {E w : Nat} (ids : IVec ⟨2, ![E, 2]⟩ w) (e : Fin E) : Int := (ids (ix2 e (1 : Fin 2))).toInt

/-- The sum of the entries `f e` over the pairs `e` that name matrix element (a, v). -/
def pairSum {E N M w : Nat} (ids : IVec ⟨2, ![E, 2]⟩ w) (f : Fin E → EReal) (a : Fin N) (v : Fin M) : EReal :=
  ∑ e : Fin E, if rowOf ids e = (a.val : Int) ∧ colOf ids e = (v.val : Int) then f e else 0

theorem nmem0 : (0 : Fin 3) ∉ ([1, 2] : List (Fin 3)) := by decide
theorem mem1 : (1 : Fin 3) ∈ ([1, 2] : List (Fin 3)) := by decide
theorem mem2 : (2 : Fin 3) ∈ ([1, 2] : List (Fin 3)) := by decide
theorem kept0 : (0 : Fin 3) ∈ (List.finRange 3).filter (· ∉ ([1, 2] : List (Fin 3))) := by decide
theorem kept1 : (1 : Fin 3) ∉ (List.finRange 3).filter (· ∉ ([1, 2] : List (Fin 3))) := by decide
theorem kept2 : (2 : Fin 3) ∉ (List.finRange 3).filter (· ∉ ([1, 2] : List (Fin 3))) := by decide

section
variable {R N M E w : Nat} (wf : ScatterDims.WF ⟨3, ![R, N, M]⟩ ⟨2, ![E, 2]⟩ ⟨2, ![R, E]⟩ [0] [1, 2] [1, 2] 1)

/-- The dimension numbers of a batched pair scatter: the updates' axis 0 is the window and goes to operand axis 0, the
    operand's axes 1 and 2 are inserted and named by components 0 and 1 of the index vector, which sits on the indices'
    axis 1. -/
abbrev pairDims : ScatterDims ⟨3, ![R, N, M]⟩ ⟨2, ![E, 2]⟩ ⟨2, ![R, E]⟩ := ⟨[0], [1, 2], [1, 2], 1, wf⟩

theorem start0 (ids : IVec ⟨2, ![E, 2]⟩ w) (r : Fin R) (e : Fin E) : (pairDims wf).start (ix2 r e) ids 0 = 0 := by
  unfold ScatterDims.start
  exact dif_neg nmem0

theorem start1 (ids : IVec ⟨2, ![E, 2]⟩ w) (r : Fin R) (e : Fin E) : (pairDims wf).start (ix2 r e) ids 1 = rowOf ids e := by
  unfold ScatterDims.start
  refine (dif_pos mem1).trans ?_
  refine congrArg (fun z => (ids z).toInt) ?_
  funext b
  match b with
  | ⟨0, _⟩ => rfl
  | ⟨1, _⟩ => rfl

theorem start2 (ids : IVec ⟨2, ![E, 2]⟩ w) (r : Fin R) (e : Fin E) : (pairDims wf).start (ix2 r e) ids 2 = colOf ids e := by
  unfold ScatterDims.start
  refine (dif_pos mem2).trans ?_
  refine congrArg (fun z => (ids z).toInt) ?_
  funext b
  match b with
  | ⟨0, _⟩ => rfl
  | ⟨1, _⟩ => rfl

theorem window0 (r : Fin R) (e : Fin E) : (pairDims wf).window (ix2 r e) 0 = r.val := by
  unfold ScatterDims.window
  exact (dif_pos kept0).trans rfl

theorem window1 (r : Fin R) (e : Fin E) : (pairDims wf).window (ix2 r e) 1 = 0 := by
  unfold ScatterDims.window
  exact dif_neg kept1

theorem window2 (r : Fin R) (e : Fin E) : (pairDims wf).window (ix2 r e) 2 = 0 := by
  unfold ScatterDims.window
  exact dif_neg kept2

/-- Update element (r, e) lands on operand element (r', a, v) exactly when the batch coordinates agree and pair `e` names
    (a, v). -/
theorem pairs_resultIdx (ids : IVec ⟨2, ![E, 2]⟩ w) (r : Fin R) (e : Fin E) (r' : Fin R) (a : Fin N) (v : Fin M) :
    (pairDims wf).resultIdx? (ix2 r e) ids = some (ix3 r' a v)
      ↔ r = r' ∧ (rowOf ids e = (a.val : Int) ∧ colOf ids e = (v.val : Int)) := by
  rw [Cert.Lib.SegmentSum.resultIdx?_eq_some_iff]
  constructor
  · intro h
    have h0 : (0 : Int) + (r.val : Int) = (r'.val : Int) := by
      have := h 0; rw [start0, window0] at this; exact this
    have h1 : rowOf ids e + ((0 : Nat) : Int) = (a.val : Int) := by
      have := h 1; rw [start1, window1] at this; exact this
    have h2 : colOf ids e + ((0 : Nat) : Int) = (v.val : Int) := by
      have := h 2; rw [start2, window2] at this; exact this
    exact ⟨Fin.ext (by omega), by omega, by omega⟩
  · rintro ⟨rfl, ha, hv⟩ ax
    match ax with
    | ⟨0, _⟩ =>
      show (pairDims wf).start (ix2 r e) ids 0 + ((pairDims wf).window (ix2 r e) 0 : Int) = (r.val : Int)
      rw [start0, window0]; omega
    | ⟨1, _⟩ =>
      show (pairDims wf).start (ix2 r e) ids 1 + ((pairDims wf).window (ix2 r e) 1 : Int) = (a.val : Int)
      rw [start1, window1]; omega
    | ⟨2, _⟩ =>
      show (pairDims wf).start (ix2 r e) ids 2 + ((pairDims wf).window (ix2 r e) 2 : Int) = (v.val : Int)
      rw [start2, window2]; omega

/-- ELEMENT (r, a, v) of a batched pair scatter-add: the operand's element plus the pair sum of row `r` of the updates. -/
theorem pairs_apply (x : (⟨3, ![R, N, M]⟩ : Shape).Idx → EReal) (ids : IVec ⟨2, ![E, 2]⟩ w)
    (upd : (⟨2, ![R, E]⟩ : Shape).Idx → EReal) (r : Fin R) (a : Fin N) (v : Fin M) :
    Ideal.hostScatterAdd (pairDims wf) x ids upd (ix3 r a v)
      = x (ix3 r a v) + pairSum ids (fun e => upd (ix2 r e)) a v := by
  unfold Ideal.hostScatterAdd pairSum
  refine congrArg (x (ix3 r a v) + ·) ?_
  rw [Finset.sum_filter, sum_idx2, Finset.sum_comm]
  refine Finset.sum_congr rfl fun e _ => ?_
  simp only [pairs_resultIdx]
  by_cases hit : rowOf ids e = (a.val : Int) ∧ colOf ids e = (v.val : Int)
  · simp only [hit, and_self, and_true]
    rw [Finset.sum_ite_eq' Finset.univ r (fun r' => upd (ix2 r' e))]
    simp
  · simp [hit]

/-- The same for the host operation as a program prints it, with the program's own record of these dimension numbers. -/
theorem pairs_apply_host (d : ScatterDims ⟨3, ![R, N, M]⟩ ⟨2, ![E, 2]⟩ ⟨2, ![R, E]⟩) (hd : d = pairDims wf)
    (x : FVec Ideal ⟨3, ![R, N, M]⟩ .f32) (ids : IVec ⟨2, ![E, 2]⟩ w) (upd : FVec Ideal ⟨2, ![R, E]⟩ .f32)
    (r : Fin R) (a : Fin N) (v : Fin M) :
    Host.scatterAdd d x ids upd (ix3 r a v) = x (ix3 r a v) + pairSum ids (fun e => upd (ix2 r e)) a v := by
  subst hd
  exact pairs_apply wf x ids upd r a v

end

end Cert.Lib.ScatterPairs

end
-- ==== Proof.LibGatherRows.lean ====
/-
  Rows of a table taken by a column of integer ids, read at an index.

  `table[ids]` for a table `[N, D]` (or a flat array `[N]`) and ids given as an `[E, 1]` column lowers to a
  `stablehlo.gather` whose start index names the table's row axis, which is collapsed; a slice is one whole row
  (one element). StableHLO clamps every start index into the operand, so entry `e` of the result is the table's
  row `min (max id 0) (N − 1)`, where `id` is the id word of `e` read as a signed integer. Both shapes read
  the SAME row, `rowAt`, which is what lets a proof move a factor gathered from a flat array next to a row gathered
  from a table.
-/
import Idealize.ShloMosaic.Lib.ValueIdx

noncomputable section

namespace Cert.Lib.GatherRows

open Idealize.ShloMosaic Idealize.ShloMosaic.ValueIdx

/-- The row an id names: entry `e`'s id word read signed, negative ids taken to row 0, ids past the end to the last row. -/
def rowAt {E w : Nat} (N : Nat) (hN : 0 < N) (ids : IVec ⟨2, ![E, 1]⟩ w) (e : Fin E) : Fin N :=
  ⟨min (ids (ix2 e (0 : Fin 1))).toInt.toNat (N - 1), by omega⟩

/-- An id that is, read signed, a row number below `N` names that row. -/
theorem rowAt_of_toInt {E w N : Nat} (hN : 0 < N) (ids : IVec ⟨2, ![E, 1]⟩ w) (e : Fin E) (r : Fin N)
    (h : (ids (ix2 e (0 : Fin 1))).toInt = (r.val : Int)) : rowAt N hN ids e = r := by
  refine Fin.ext ?_
  show min (ids (ix2 e (0 : Fin 1))).toInt.toNat (N - 1) = r.val
  rw [h]
  have := r.isLt
  omega

section Rows
variable {α : Type}

/-- The dimension numbers of `table[ids]` for a table `[N, D]`, ids `[E, 1]` and a result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ENTRY (e, q) of the gathered rows: the table at the row `e`'s id names, column `q`. -/
theorem rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (ids : IVec ⟨2, ![E, 1]⟩ w) (e : Fin E) (q : Fin D) :
    Host.gather (rowsDims N D E wf) x ids (ix2 e q) = x (ix2 (rowAt N hN ids e) q) := by
  unfold Host.gather
  congr 1
  funext a
  refine Fin.ext ?_
  match a with
  | ⟨0, _⟩ =>
    show (rowsDims N D E wf).start (ix2 e q) ids 0 + (rowsDims N D E wf).batchCoord (ix2 e q) 0
      + (rowsDims N D E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e q) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e q) ids 1 + (rowsDims N D E wf).batchCoord (ix2 e q) 1
      + (rowsDims N D E wf).offCoord (ix2 e q) 1 = q.val
    have hs : (rowsDims N D E wf).start (ix2 e q) ids 1 = 0 := by
      unfold GatherDims.start
      rw [dif_neg (show (1 : Fin 2) ∉ (rowsDims N D E wf).startIndexMap from
        fun h => absurd (List.mem_singleton.mp h) (Fin.ne_of_val_ne Nat.one_ne_zero))]
    have hk : (1 : Fin 2) ∈ (rowsDims N D E wf).sKept :=
      (GatherDims.mem_sKept _ _).mpr ⟨fun h => absurd (List.mem_singleton.mp h) (Fin.ne_of_val_ne Nat.one_ne_zero), List.not_mem_nil⟩
    rw [hs, GatherDims.batchCoord_eq_zero _ _ _ List.not_mem_nil]
    simp only [Nat.zero_add, Nat.add_zero]
    unfold GatherDims.offCoord
    rw [dif_pos hk]
    rfl

/-- The same for the host operation as a program prints it, with the program's own record of these dimension numbers. -/
theorem rows_apply_host {N D E w : Nat} (hN : 0 < N)
    (wf : GatherDims.WF ⟨2, ![N, D]⟩ ⟨2, ![E, 1]⟩ ⟨2, ![E, D]⟩ [1] [0] [] [0] [] 1 ![1, D])
    (d : GatherDims ⟨2, ![N, D]⟩ ⟨2, ![E, 1]⟩ ⟨2, ![E, D]⟩) (hd : d = rowsDims N D E wf)
    (x : (⟨2, ![N, D]⟩ : Shape).Idx → α) (ids : IVec ⟨2, ![E, 1]⟩ w) (e : Fin E) (q : Fin D) :
    Host.gather d x ids (ix2 e q) = x (ix2 (rowAt N hN ids e) q) := by
  subst hd
  exact rows_apply hN wf x ids e q

end Rows

section Flat
variable {α : Type}

/-- The dimension numbers of `x[ids]` for a flat array `[N]`, ids `[E, 1]` and a result `[E]`. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ENTRY e of the gathered elements: the array at the element `e`'s id names. -/
theorem flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (ids : IVec ⟨2, ![E, 1]⟩ w) (e : Fin E) :
    Host.gather (flatDims N E wf) x ids (ix1 e) = x (ix1 (rowAt N hN ids e)) := by
  unfold Host.gather
  congr 1
  funext a
  obtain rfl : a = 0 := Subsingleton.elim _ _
  refine Fin.ext ?_
  show (flatDims N E wf).start (ix1 e) ids 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for the host operation as a program prints it. -/
theorem flat_apply_host {N E w : Nat} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = flatDims N E wf)
    (x : (⟨1, ![N]⟩ : Shape).Idx → α) (ids : IVec ⟨2, ![E, 1]⟩ w) (e : Fin E) :
    Host.gather d x ids (ix1 e) = x (ix1 (rowAt N hN ids e)) := by
  subst hd
  exact flat_apply hN wf x ids e

end Flat

end Cert.Lib.GatherRows

end
-- ==== Proof.LibOnePassVariance.lean ====
/-
  The one-pass variance of a finite family of real numbers, on the extended reals.

  For reals x_i (i over a finite type of n ≠ 0 elements) write S1 = ∑ x_i and S2 = ∑ x_i².  A statistics pass that
  accumulates the two sums and then forms  max (S2 / n − (S1 / n)², 0)  computes the same number as the two-pass
  definition  (∑ (x_i − S1 / n)²) / n :  expanding the square gives  ∑ (x_i − m)² = S2 − 2 m S1 + n m²,  which at
  m = S1 / n is  S2 − S1² / n;  and the two-pass form is a sum of squares over a positive number, so the clamp at 0
  does nothing.  The law needs every x_i to be a real number: on the extended reals  ∞ − ∞  has no cancellation.

  Also here: the extended reals that are real numbers are closed under the operations a normalisation layer applies
  (sums, products, differences, a quotient by a nonzero real, the reciprocal square root of a positive real,
  a maximum), which is how finiteness of the inputs reaches the statistics.
-/
import Idealize.ShloMosaic.PureOps.Ideal
import Mathlib.Tactic

noncomputable section

open Idealize.ShloMosaic

namespace Cert.Lib.OnePassVariance

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem isReal_zero : IsReal (0 : EReal) := ⟨0, EReal.coe_zero.symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A quotient of a real number by a nonzero real is a real number. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is a positive real. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_pos {r : ℝ} (hr : 0 < r) : IsReal (Ideal.rsqrt (r : EReal)) := ⟨_, rsqrt_pos hr⟩

/-- The identity over the reals: the mean of the squares less the square of the mean is the mean squared deviation. -/
theorem real_var {ι : Type*} [Fintype ι] (x : ι → ℝ) (n : ℝ) (hn : n = (Fintype.card ι : ℝ)) (hn0 : n ≠ 0) :
    (∑ i, x i * x i) * (1 / n) - ((∑ i, x i) * (1 / n)) * ((∑ i, x i) * (1 / n))
      = (∑ i, (x i - (∑ j, x j) * (1 / n)) * (x i - (∑ j, x j) * (1 / n))) * (1 / n) := by
  set S1 := ∑ i, x i with hS1
  set m := S1 * (1 / n) with hm
  have hexp : ∀ i, (x i - m) * (x i - m) = x i * x i - 2 * m * x i + m * m := fun i => by ring
  have hsum : (∑ i, (x i - m) * (x i - m)) = (∑ i, x i * x i) - 2 * m * S1 + n * (m * m) := by
    simp_rw [hexp]
    rw [Finset.sum_add_distrib, Finset.sum_sub_distrib, ← Finset.mul_sum, Finset.sum_const, Finset.card_univ,
      nsmul_eq_mul, ← hn]
  rw [hsum, hm]
  field_simp
  ring

/-- The mean squared deviation is nonnegative. -/
theorem real_var_nonneg {ι : Type*} [Fintype ι] (x : ι → ℝ) (m n : ℝ) (hn : 0 < n) :
    0 ≤ (∑ i, (x i - m) * (x i - m)) * (1 / n) :=
  mul_nonneg (Finset.sum_nonneg fun i _ => mul_self_nonneg _) (by positivity)

/-- THE LAW, on the extended reals with the exact quotient: for real entries and n their (nonzero) number, the
    one-pass variance clamped at zero is the two-pass variance. -/
theorem one_pass_variance {ι : Type*} [Fintype ι] (h : ι → EReal) (hfin : ∀ i, IsReal (h i))
    (n : ℝ) (hn : n = (Fintype.card ι : ℝ)) (hn0 : 0 < n) :
    max (Ideal.div (∑ i, h i * h i) (n : EReal)
          - Ideal.div (∑ i, h i) (n : EReal) * Ideal.div (∑ i, h i) (n : EReal)) 0
      = Ideal.div (∑ i, (h i - Ideal.div (∑ j, h j) (n : EReal)) * (h i - Ideal.div (∑ j, h j) (n : EReal))) (n : EReal) := by
  choose x hx using hfin
  have hh : h = fun i => (x i : EReal) := funext hx
  subst hh
  have hn' : n ≠ 0 := hn0.ne'
  have e1 : (∑ i, ((x i : ℝ) : EReal)) = ((∑ i, x i : ℝ) : EReal) := (coe_sum _ _).symm
  have e2 : (∑ i, ((x i : ℝ) : EReal) * ((x i : ℝ) : EReal)) = ((∑ i, x i * x i : ℝ) : EReal) := by
    rw [coe_sum]; exact Finset.sum_congr rfl fun i _ => (EReal.coe_mul _ _).symm
  have em : Ideal.div (∑ i, ((x i : ℝ) : EReal)) (n : EReal) = (((∑ i, x i) * (1 / n) : ℝ) : EReal) := by
    rw [Ideal.div_coe hn', e1, ← EReal.coe_mul]
  have e3 : (∑ i, (((x i : ℝ) : EReal) - (((∑ j, x j) * (1 / n) : ℝ) : EReal))
        * (((x i : ℝ) : EReal) - (((∑ j, x j) * (1 / n) : ℝ) : EReal)))
      = ((∑ i, (x i - (∑ j, x j) * (1 / n)) * (x i - (∑ j, x j) * (1 / n)) : ℝ) : EReal) := by
    rw [coe_sum]
    exact Finset.sum_congr rfl fun i _ => by rw [← EReal.coe_sub, ← EReal.coe_mul]
  rw [em, e3, Ideal.div_coe hn', Ideal.div_coe hn', e2, ← EReal.coe_mul, ← EReal.coe_mul, ← EReal.coe_mul, ← EReal.coe_sub,
    real_var x n hn hn']
  exact max_eq_left (by exact_mod_cast real_var_nonneg x _ n hn0)

/-- The two-pass variance of real entries is a nonnegative real number. -/
theorem two_pass_variance_nonneg {ι : Type*} [Fintype ι] (h : ι → EReal) (hfin : ∀ i, IsReal (h i))
    (m : EReal) (hm : IsReal m) (n : ℝ) (hn0 : 0 < n) :
    ∃ r : ℝ, 0 ≤ r ∧ Ideal.div (∑ i, (h i - m) * (h i - m)) (n : EReal) = (r : EReal) := by
  choose x hx using hfin
  obtain ⟨μ, rfl⟩ := hm
  have hh : h = fun i => (x i : EReal) := funext hx
  subst hh
  refine ⟨(∑ i, (x i - μ) * (x i - μ)) * (1 / n), real_var_nonneg x μ n hn0, ?_⟩
  have e : (∑ i, (((x i : ℝ) : EReal) - (μ : EReal)) * (((x i : ℝ) : EReal) - (μ : EReal)))
      = ((∑ i, (x i - μ) * (x i - μ) : ℝ) : EReal) := by
    rw [coe_sum]; exact Finset.sum_congr rfl fun i _ => by rw [← EReal.coe_sub, ← EReal.coe_mul]
  rw [Ideal.div_coe hn0.ne']
  beta_reduce
  rw [e, ← EReal.coe_mul]

/-- The reciprocal square root of a nonnegative real plus a positive real is a real number: the scale a
    normalisation layer multiplies by is finite whenever the variance is a nonnegative real. -/
theorem isReal_rsqrt_add_pos {v e : ℝ} (hv : 0 ≤ v) (he : 0 < e) : IsReal (Ideal.rsqrt ((v : EReal) + (e : EReal))) := by
  rw [← EReal.coe_add]; exact isReal_rsqrt_pos (by linarith)

end Cert.Lib.OnePassVariance

end
-- ==== Proof.Spec.lean ====
/-
  Graph diffusion with per-slot edge weights: the mathematics both programs compute.

  A row `f : Fin 1722 → EReal` of edge weights and two lists of index pairs (the edges (i, j), and the same edges
  reversed) give a symmetric adjacency matrix: entry (a, v) is the sum of the weights of the edges naming (a, v) in
  either orientation (`adjAt`; duplicated edges add up, an edge leaving the matrix contributes nothing). Its Laplacian
  has entry (p, v) = deg(p) · 1[p = v] − A(p, v) with deg(p) the sum of column p of the adjacency (`lapAt`; the mask
  1[p = v] is kept as an array `eye`). One sample's result is

      out(b, p, l) = (Σ_v L_b(p, v) · x(b, v, l) + bias_b(p)) + x(b, p, l) · (1 + wsl_b(p))          (`combine`)

  where L_b, bias_b, wsl_b are those of the slot the sample's id names. The other program writes the same number as
  ((Σ_v x(b, v, l) · L_b(p, v) + bias_b(p)) + x(b, p, l)) + wsl_b(p) · x(b, p, l); the two agree when x(b, p, l) and
  wsl_b(p) are real numbers (`combine_alt`): x · (1 + w) = x + w · x is distributivity, which holds for real factors
  (at an infinite x and w = −1 the left side is x · 0 = 0 and the right side ∞ − ∞), while regrouping the sum with any
  extended-real first term and commuting the products under the Σ need nothing.
-/
import proofs.«172634_j90872918049150_2_alg».proof.Proof.LibScatterPairs
import proofs.«172634_j90872918049150_2_alg».proof.Proof.LibGatherRows
import proofs.«172634_j90872918049150_2_alg».proof.Proof.LibOnePassVariance
import Idealize.ShloMosaic.PureOps.Ideal.Laws
import Idealize.ShloMosaic.Lib.ValueIdx

noncomputable section

open scoped BigOperators

namespace Cert.Diffusion

open Idealize.ShloMosaic Idealize.ShloMosaic.ValueIdx Cert.Lib.ScatterPairs Cert.Lib.GatherRows Cert.Lib.OnePassVariance

/-- The 1722 index pairs of one orientation of the edges. -/
abbrev Pairs := IVec ⟨2, ![1722, 2]⟩ 32
/-- The 1024 samples' slot ids, as a column. -/
abbrev Ids := IVec ⟨2, ![1024, 1]⟩ 32

/-- The float pattern 0x3F800000 denotes the real number 1. -/
theorem one_f32 : Ideal.ofBits .f32 0x3F800000#32 = 1 := by
  simp [Ideal.ofBits, Ideal.ieee, -EReal.coe_mul]; norm_num

/-- Adjacency entry (a, v) from one row of edge weights: the edges naming (a, v), plus the reversed edges naming it. -/
def adjAt (I1 I2 : Pairs) (f : Fin 1722 → EReal) (a v : Fin 207) : EReal := pairSum I1 f a v + pairSum I2 f a v

/-- Laplacian entry (p, v): the degree of p (the sum of column p of the adjacency) on the diagonal mask, minus the
    adjacency. -/
def lapAt (I1 I2 : Pairs) (eye : (⟨2, ![207, 207]⟩ : Shape).Idx → EReal) (f : Fin 1722 → EReal) (p v : Fin 207) : EReal :=
  (∑ u : Fin 207, adjAt I1 I2 f u p) * eye (ix2 p v) - adjAt I1 I2 f p v

/-- The per-sample Laplacians: sample b's is the Laplacian of the weight row of the slot its id names (read signed and
    clamped into the 288 slots). -/
def lapB (W : (⟨2, ![288, 1722]⟩ : Shape).Idx → EReal) (I1 I2 : Pairs) (eye : (⟨2, ![207, 207]⟩ : Shape).Idx → EReal)
    (J : Ids) : (⟨3, ![1024, 207, 207]⟩ : Shape).Idx → EReal :=
  fun i => lapAt I1 I2 eye (fun e => W (ix2 (rowAt 288 (by decide) J (i 0)) e)) (i 1) (i 2)

theorem lapB_ix3 (W : (⟨2, ![288, 1722]⟩ : Shape).Idx → EReal) (I1 I2 : Pairs) (eye : (⟨2, ![207, 207]⟩ : Shape).Idx → EReal)
    (J : Ids) (b : Fin 1024) (p v : Fin 207) :
    lapB W I1 I2 eye J (ix3 b p v) = lapAt I1 I2 eye (fun e => W (ix2 (rowAt 288 (by decide) J b) e)) p v := rfl

/-- One entry of the result from the four arrays the samples are computed from: the per-sample Laplacians, the
    samples, and the per-sample bias and self-loop weight rows. -/
def combineAt (L : (⟨3, ![1024, 207, 207]⟩ : Shape).Idx → EReal) (X : (⟨3, ![1024, 207, 64]⟩ : Shape).Idx → EReal)
    (Bi Ws : (⟨2, ![1024, 207]⟩ : Shape).Idx → EReal) (b : Fin 1024) (p : Fin 207) (l : Fin 64) : EReal :=
  (∑ v : Fin 207, L (ix3 b p v) * X (ix3 b v l) + Bi (ix2 b p)) + X (ix3 b p l) * (1 + Ws (ix2 b p))

/-- The whole result array. -/
def combine (L : (⟨3, ![1024, 207, 207]⟩ : Shape).Idx → EReal) (X : (⟨3, ![1024, 207, 64]⟩ : Shape).Idx → EReal)
    (Bi Ws : (⟨2, ![1024, 207]⟩ : Shape).Idx → EReal) : (⟨3, ![1024, 207, 64]⟩ : Shape).Idx → EReal :=
  fun i => combineAt L X Bi Ws (i 0) (i 1) (i 2)

theorem combine_ix3 (L : (⟨3, ![1024, 207, 207]⟩ : Shape).Idx → EReal) (X : (⟨3, ![1024, 207, 64]⟩ : Shape).Idx → EReal)
    (Bi Ws : (⟨2, ![1024, 207]⟩ : Shape).Idx → EReal) (b : Fin 1024) (p : Fin 207) (l : Fin 64) :
    combine L X Bi Ws (ix3 b p l) = combineAt L X Bi Ws b p l := rfl

/-- For real x and w:  x · (1 + w) = x + w · x  on the extended reals. -/
theorem mul_one_add_real {x w : EReal} (hx : IsReal x) (hw : IsReal w) : x * (1 + w) = x + w * x := by
  obtain ⟨xr, rfl⟩ := hx
  obtain ⟨wr, rfl⟩ := hw
  rw [← EReal.coe_one, ← EReal.coe_add, ← EReal.coe_mul, ← EReal.coe_mul, ← EReal.coe_add]
  exact congrArg _ (by ring)

/-- THE LAW joining the two programs: the other arrangement of one entry, with the products under the sum commuted,
    the sample added before its self-loop product. -/
theorem combine_alt (L : (⟨3, ![1024, 207, 207]⟩ : Shape).Idx → EReal) (X : (⟨3, ![1024, 207, 64]⟩ : Shape).Idx → EReal)
    (Bi Ws : (⟨2, ![1024, 207]⟩ : Shape).Idx → EReal) (b : Fin 1024) (p : Fin 207) (l : Fin 64)
    (hx : IsReal (X (ix3 b p l))) (hw : IsReal (Ws (ix2 b p))) :
    ((∑ v : Fin 207, L (ix3 b p v) * X (ix3 b v l) + Bi (ix2 b p)) + X (ix3 b p l)) + Ws (ix2 b p) * X (ix3 b p l)
      = combineAt L X Bi Ws b p l := by
  unfold combineAt
  rw [mul_one_add_real hx hw, add_assoc]

end Cert.Diffusion

end
-- ==== Proof.KernelBody.lean ====
/-
  The kernel body's arithmetic at one entry of a block of 32 samples.

  The body loads a block of 32 Laplacians L (as bf16: a format change is the identity on the extended reals), the 32
  samples x and the 32 bias and self-loop rows, multiplies each Laplacian into its sample (one batched matrix product
  into a zero accumulator: entry (b, p, l) is Σ_v L(b, p, v) · x(b, v, l)), adds the bias row spread along the lanes, and
  adds x · (1 + wsl) with the self-loop row spread along the lanes.
-/
import proofs.«172634_j90872918049150_2_alg».proof.Proof.Gen.KernelIdeal.Skeleton
import proofs.«172634_j90872918049150_2_alg».proof.Proof.LibBatchedDot
import proofs.«172634_j90872918049150_2_alg».proof.Proof.LibLaneKeepdims
import proofs.«172634_j90872918049150_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Entry (b, p, l) of the body's stored value, from the four loaded blocks. -/
theorem pay_ix3 (x0 : Vec Ideal S32x207x207 .bf16) (x1 : Vec Ideal S32x207x64 .f32) (x2 x3 : Vec Ideal S32x207 .f32)
    (b : Fin 32) (p : Fin 207) (l : Fin 64) :
    k0_pay1 (F := Ideal) x0 x1 x2 x3 (ix3 b p l)
      = (∑ v : Fin 207, x0 (ix3 b p v) * x1 (ix3 b v l) + x2 (ix2 b p)) + x1 (ix3 b p l) * (1 + x3 (ix2 b p)) := by
  unfold k0_pay1
  simp only [shapeCast_self]
  rw [addf_apply, addf_apply, mulf_apply]
  rw [Cert.LaneKeepdims.spreadLane_apply, Cert.LaneKeepdims.spreadLane_apply, addf_apply,
    Cert.LaneKeepdims.keepLane_apply, Cert.LaneKeepdims.keepLane_apply, broadcast_apply]
  rw [Cert.Lib.BatchedDot.matmul_pv_apply _ rfl rfl rfl rfl rfl rfl]
  simp only [truncf_apply]
  rw [show (Scalar.ofBits (F := Ideal) .f32 0x3F800000#32 : EReal) = 1 from Cert.Diffusion.one_f32]

/-- The same at any index of the block. -/
theorem pay_apply (x0 : Vec Ideal S32x207x207 .bf16) (x1 : Vec Ideal S32x207x64 .f32) (x2 x3 : Vec Ideal S32x207 .f32)
    (j : S32x207x64.Idx) :
    k0_pay1 (F := Ideal) x0 x1 x2 x3 j
      = (∑ v : Fin 207, x0 (ix3 (j 0) (j 1) v) * x1 (ix3 (j 0) v (j 2)) + x2 (ix2 (j 0) (j 1)))
        + x1 j * (1 + x3 (ix2 (j 0) (j 1))) := by
  obtain ⟨b, p, l, rfl⟩ : ∃ (b : Fin 32) (p : Fin 207) (l : Fin 64), j = ix3 b p l := ⟨j 0, j 1, j 2, eq_ix3 j⟩
  exact pay_ix3 x0 x1 x2 x3 b p l

end Cert.KernelIdeal.Body

end
-- ==== Proof.KernelBlocks.lean ====
/-
  From blocks to the array: the kernel's output array after the run.

  The grid has 32 points; point t handles the block of samples 32·t … 32·t + 31: it reads those samples' Laplacians,
  the samples themselves and their bias and self-loop rows (whole along every other axis), and writes back the same
  rows of the output. An entry (b, p, l) of the output therefore depends only on sample b's own rows of the four
  arrays — the body's arithmetic (`Body.pay_apply`) read at the block's place in the arrays is `Diffusion.combine` of the
  four arrays as the region finds them —, and the 32 blocks cover the output (sample b is in block b / 32).
-/
import proofs.«172634_j90872918049150_2_alg».proof.Proof.Gen.KernelIdeal.Value
import proofs.«172634_j90872918049150_2_alg».proof.Proof.KernelBody
import proofs.«172634_j90872918049150_2_alg».proof.Proof.Spec
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Diffusion
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: every window's block moves with the output's along the sample axis
    and sits at 0 on every other axis; the output's block index on the sample axis is at most 31. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = win0_4.index t (0 : Fin 3) ∧ win0_2.index t (1 : Fin 2) = 0
    ∧ win0_3.index t (0 : Fin 2) = win0_4.index t (0 : Fin 3) ∧ win0_3.index t (1 : Fin 2) = 0
    ∧ win0_4.index t (1 : Fin 3) = 0 ∧ win0_4.index t (2 : Fin 3) = 0 ∧ win0_4.index t (0 : Fin 3) ≤ 31 :=
  (by decide +kernel : ∀ t : Fin grid0.N, _)

/-- Every block of samples is some point's. -/
theorem idx_onto : ∀ q0 : Fin 32, ∃ t : Fin cfg0.N, win0_4.index t = ![q0.val, 0, 0] :=
  (by decide +kernel : ∀ q0 : Fin 32, ∃ t : Fin grid0.N, win0_4.index t = ![q0.val, 0, 0])

/-! ### Each input window's block, read where the output's block says

Stated for an arbitrary array `A` in the window's place: entry `y` of window w's block at point `t` is the array at
block index × block size + `y`, and the block indices are tied to the output's by `idx_facts`. -/

section reads
variable (t : Fin cfg0.N)

/-- Row (b, p) of the block of Laplacians is row p of sample (32·t + b)'s Laplacian. -/
theorem read0 (A : S1024x207x207.Idx → EReal) (j : S32x207x64.Idx) (v : Fin 207) :
    ((cfg0.win 0).blk t).view.read (Elt Ideal) A (ix3 (j 0) (j 1) v)
      = A (ix3 ((((cfg0.win 4).blk t).view.emb j) 0) ((((cfg0.win 4).blk t).view.emb j) 1) v) := by
  obtain ⟨e00, e01, e02, e10, e11, e12, e20, e21, e30, e31, e41, e42, e4⟩ := idx_facts t
  show A (((cfg0.win 0).blk t).view.emb (ix3 (j 0) (j 1) v)) = _
  refine congrArg A (funext fun a => Fin.ext ?_)
  match a with
  | ⟨0, _⟩ => show win0_0.index t (0 : Fin 3) * 32 + 1 * (j 0).val = win0_4.index t (0 : Fin 3) * 32 + 1 * (j 0).val; omega
  | ⟨1, _⟩ => show win0_0.index t (1 : Fin 3) * 207 + 1 * (j 1).val = win0_4.index t (1 : Fin 3) * 207 + 1 * (j 1).val; omega
  | ⟨2, _⟩ => show win0_0.index t (2 : Fin 3) * 207 + 1 * v.val = v.val; omega

/-- Column l of the block of samples at row v is that of sample (32·t + b). -/
theorem read1 (A : S1024x207x64.Idx → EReal) (j : S32x207x64.Idx) (v : Fin 207) :
    ((cfg0.win 1).blk t).view.read (Elt Ideal) A (ix3 (j 0) v (j 2))
      = A (ix3 ((((cfg0.win 4).blk t).view.emb j) 0) v ((((cfg0.win 4).blk t).view.emb j) 2)) := by
  obtain ⟨e00, e01, e02, e10, e11, e12, e20, e21, e30, e31, e41, e42, e4⟩ := idx_facts t
  show A (((cfg0.win 1).blk t).view.emb (ix3 (j 0) v (j 2))) = _
  refine congrArg A (funext fun a => Fin.ext ?_)
  match a with
  | ⟨0, _⟩ => show win0_1.index t (0 : Fin 3) * 32 + 1 * (j 0).val = win0_4.index t (0 : Fin 3) * 32 + 1 * (j 0).val; omega
  | ⟨1, _⟩ => show win0_1.index t (1 : Fin 3) * 207 + 1 * v.val = v.val; omega
  | ⟨2, _⟩ => show win0_1.index t (2 : Fin 3) * 64 + 1 * (j 2).val = win0_4.index t (2 : Fin 3) * 64 + 1 * (j 2).val; omega

/-- The block of samples at the output's own index. -/
theorem read1j (A : S1024x207x64.Idx → EReal) (j : S32x207x64.Idx) :
    ((cfg0.win 1).blk t).view.read (Elt Ideal) A j
      = A (ix3 ((((cfg0.win 4).blk t).view.emb j) 0) ((((cfg0.win 4).blk t).view.emb j) 1) ((((cfg0.win 4).blk t).view.emb j) 2)) := by
  obtain ⟨e00, e01, e02, e10, e11, e12, e20, e21, e30, e31, e41, e42, e4⟩ := idx_facts t
  show A (((cfg0.win 1).blk t).view.emb j) = _
  refine congrArg A (funext fun a => Fin.ext ?_)
  match a with
  | ⟨0, _⟩ => show win0_1.index t (0 : Fin 3) * 32 + 1 * (j 0).val = win0_4.index t (0 : Fin 3) * 32 + 1 * (j 0).val; omega
  | ⟨1, _⟩ => show win0_1.index t (1 : Fin 3) * 207 + 1 * (j 1).val = win0_4.index t (1 : Fin 3) * 207 + 1 * (j 1).val; omega
  | ⟨2, _⟩ => show win0_1.index t (2 : Fin 3) * 64 + 1 * (j 2).val = win0_4.index t (2 : Fin 3) * 64 + 1 * (j 2).val; omega

/-- Entry (b, p) of the block of bias rows is entry p of sample (32·t + b)'s row. -/
theorem read2 (A : S1024x207.Idx → EReal) (j : S32x207x64.Idx) :
    ((cfg0.win 2).blk t).view.read (Elt Ideal) A (ix2 (j 0) (j 1))
      = A (ix2 ((((cfg0.win 4).blk t).view.emb j) 0) ((((cfg0.win 4).blk t).view.emb j) 1)) := by
  obtain ⟨e00, e01, e02, e10, e11, e12, e20, e21, e30, e31, e41, e42, e4⟩ := idx_facts t
  show A (((cfg0.win 2).blk t).view.emb (ix2 (j 0) (j 1))) = _
  refine congrArg A (funext fun a => Fin.ext ?_)
  match a with
  | ⟨0, _⟩ => show win0_2.index t (0 : Fin 2) * 32 + 1 * (j 0).val = win0_4.index t (0 : Fin 3) * 32 + 1 * (j 0).val; omega
  | ⟨1, _⟩ => show win0_2.index t (1 : Fin 2) * 207 + 1 * (j 1).val = win0_4.index t (1 : Fin 3) * 207 + 1 * (j 1).val; omega

/-- The same for the block of self-loop weight rows. -/
theorem read3 (A : S1024x207.Idx → EReal) (j : S32x207x64.Idx) :
    ((cfg0.win 3).blk t).view.read (Elt Ideal) A (ix2 (j 0) (j 1))
      = A (ix2 ((((cfg0.win 4).blk t).view.emb j) 0) ((((cfg0.win 4).blk t).view.emb j) 1)) := by
  obtain ⟨e00, e01, e02, e10, e11, e12, e20, e21, e30, e31, e41, e42, e4⟩ := idx_facts t
  show A (((cfg0.win 3).blk t).view.emb (ix2 (j 0) (j 1))) = _
  refine congrArg A (funext fun a => Fin.ext ?_)
  match a with
  | ⟨0, _⟩ => show win0_3.index t (0 : Fin 2) * 32 + 1 * (j 0).val = win0_4.index t (0 : Fin 3) * 32 + 1 * (j 0).val; omega
  | ⟨1, _⟩ => show win0_3.index t (1 : Fin 2) * 207 + 1 * (j 1).val = win0_4.index t (1 : Fin 3) * 207 + 1 * (j 1).val; omega

end reads

set_option maxHeartbeats 1000000 in
/-- WHAT POINT `t` WRITES BACK is block `t` of `combine` of the four arrays as the region finds them. -/
theorem flushed_eq (c : Dev nD) (t : Fin cfg0.N) :
    (dats m 0 c).flushed 4 t = ((cfg0.win 4).blk t).view.read (Elt Ideal)
      (combine (V m c main_v51) (V m c main_v1) (V m c main_v58) (V m c main_v65)) := by
  show (cfg0.win 4).cut (grid0.coords t) ((dats m 0 c).after 4 t) = _
  rw [after0_4]
  unfold out0_4
  rw [View.canon_unit_zero hz3]
  simp only [View.ld_unit_zero (S := S32x207x207) hz3, View.ld_unit_zero (S := S32x207x64) hz3,
    View.ld_unit_zero (S := S32x207) hz2]
  funext j
  show k0_pay1 (F := Ideal) (iblk m c 0 t) (iblk m c 1 t) (iblk m c 2 t) (iblk m c 3 t) j
    = combineAt (V m c main_v51) (V m c main_v1) (V m c main_v58) (V m c main_v65)
        ((((cfg0.win 4).blk t).view.emb j) 0) ((((cfg0.win 4).blk t).view.emb j) 1) ((((cfg0.win 4).blk t).view.emb j) 2)
  refine (Body.pay_apply (iblk m c 0 t) (iblk m c 1 t) (iblk m c 2 t) (iblk m c 3 t) j).trans ?_
  unfold combineAt
  exact congrArg₂ (· + ·)
    (congrArg₂ (· + ·)
      (Finset.sum_congr rfl fun v _ => congrArg₂ (· * ·) (read0 t (V m c main_v51) j v) (read1 t (V m c main_v1) j v))
      (read2 t (V m c main_v58) j))
    (congrArg₂ (· * ·) (read1j t (V m c main_v1) j) (congrArg (1 + ·) (read3 t (V m c main_v65) j)))

/-- An index of the output is in point `t`'s block iff each coordinate is in the block's range on its axis. -/
theorem mem_blk (t : Fin cfg0.N) (i : S1024x207x64.Idx) :
    i ∈ ((cfg0.win 4).blk t).view.set ↔ ∀ a : Fin 3, win0_4.index t a * S32x207x64.size a ≤ (i a).val
      ∧ (i a).val < win0_4.index t a * S32x207x64.size a + S32x207x64.size a := by
  show i ∈ ((View.whole main_v66).slice (win0_4.rect t)).set ↔ _
  rw [View.set_slice_whole, Rect.mem_set_unit]
  exact Iff.rfl

/-- The blocks cover the output: sample b is in the block of point b / 32. -/
theorem cover (i : S1024x207x64.Idx) :
    ∃ t : Fin cfg0.N, (cfg0.win 4).flush t = true ∧ i ∈ ((cfg0.win 4).blk t).view.set := by
  have hi0 : (i 0).val < 1024 := (i 0).isLt
  have hi1 : (i 1).val < 207 := (i 1).isLt
  have hi2 : (i 2).val < 64 := (i 2).isLt
  obtain ⟨t, ht⟩ := idx_onto ⟨(i 0).val / 32, by omega⟩
  have q0 : win0_4.index t (0 : Fin 3) = (i 0).val / 32 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 32 ≤ (i 0).val ∧ (i 0).val < win0_4.index t (0 : Fin 3) * 32 + 32; omega
  | ⟨1, _⟩ => show win0_4.index t (1 : Fin 3) * 207 ≤ (i 1).val ∧ (i 1).val < win0_4.index t (1 : Fin 3) * 207 + 207; omega
  | ⟨2, _⟩ => show win0_4.index t (2 : Fin 3) * 64 ≤ (i 2).val ∧ (i 2).val < win0_4.index t (2 : Fin 3) * 64 + 64; omega

/-- THE OUTPUT ARRAY after the run: `combine` of the four arrays the region reads. -/
theorem final (c : Dev nD) : (dats m 0 c).arrAt 4 cfg0.N
    = combine (V m c main_v51) (V m c main_v1) (V m c main_v58) (V m c main_v65) :=
  (dats m 0 c).arrAt_eq_of_cover 4 _ (fun t _ => flushed_eq m c t) cover

end Cert.KernelIdeal.Blocks

end
-- ==== Proof.KernelEntry.lean ====
/-
  What the region finds: the four arrays its windows read, as functions of the program's arguments.

  Before the launch the host builds, for each of the 288 slots, the adjacency matrix of the slot's edge weights (two
  accumulating scatters onto zeros: the edges, then the reversed edges: `adjS`), its Laplacian (the column sums spread
  along rows, times the identity mask, minus the adjacency: `lapS`), narrows it to bf16, and selects one Laplacian per
  sample by the sample's slot id; it selects the samples' bias and self-loop rows by the same ids; and it takes channel 0
  of the input as the samples. The index pairs, the slot ids, the identity mask, the samples and the two row selections
  are, operation for operation, the terms the other program computes (named here by that program's stage functions).
-/
import proofs.«172634_j90872918049150_2_alg».proof.Proof.Gen.KernelIdeal.Frame
import proofs.«172634_j90872918049150_2_alg».proof.Proof.Gen.ReferenceIdeal.Read
import Idealize.ShloMosaic.Lib.StableHlo.Run
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo
open Cert.ReferenceIdeal.Read (val_main_v1 val_main_v7 val_main_v22 val_main_v36 val_main_v45 val_main_v58 val_main_v68)

/-- The 288 slots' adjacency matrices: the weights scattered at the edges' pairs, then at the reversed pairs, onto zeros. -/
def adjS (W : FVec Ideal S288x1722 .f32) (I1 I2 : IVec S1722x2 32) : FVec Ideal S288x207x207 .f32 :=
  Host.scatterAdd scatter_S288x207x207_S1722x2_S288x1722_0_12_12_1
    (Host.scatterAdd scatter_S288x207x207_S1722x2_S288x1722_0_12_12_1
      (broadcastInDim S288x207x207 ![] bcast_S_S288x207x207 (constant (F := Ideal) S_ .f32 0x00000000#32)) I1 W) I2 W

/-- The 288 slots' Laplacians from their adjacency matrices and the identity mask. -/
def lapS (A : FVec Ideal S288x207x207 .f32) (eye : FVec Ideal S207x207 .f32) : FVec Ideal S288x207x207 .f32 :=
  subf (mulf
      (broadcastInDim S288x207x207 ![0, 1, 2] bcast_S288x207x1_S288x207x207_0_1_2
        (broadcastInDim S288x207x1 ![0, 1] bcast_S288x207_S288x207x1_0_1
          (Host.reduceAdd A (constant (F := Ideal) S_ .f32 0x00000000#32) reducesTo_S288x207x207_S288x207_d1 h_S_)))
      (broadcastInDim S288x207x207 ![0, 1, 2] bcast_S1x207x207_S288x207x207_0_1_2
        (broadcastInDim S1x207x207 ![1, 2] bcast_S207x207_S1x207x207_1_2 eye))) A

variable (m : (ℓ : Loc nD τ sig) → Buf (Elt Ideal) ℓ)

set_option maxHeartbeats 4000000 in
/-- The samples: channel 0 of the input. -/
theorem V_samples (c : Dev nD) : (V m c main_v1 : S1024x207x64.Idx → EReal)
    = val_main_v1 (F := Ideal) (m ((c : Thread nD τ).loc main_arg0)) := by
  dsimp only [Gen.V, Gen.hostOps0]; after_results_simp; rfl

set_option maxHeartbeats 4000000 in
/-- The samples' bias rows. -/
theorem V_bias (c : Dev nD) : (V m c main_v58 : S1024x207.Idx → EReal)
    = val_main_v58 (F := Ideal) (m ((c : Thread nD τ).loc main_arg2)) (m ((c : Thread nD τ).loc main_arg4)) := by
  dsimp only [Gen.V, Gen.hostOps0]; after_results_simp; rfl

set_option maxHeartbeats 4000000 in
/-- The samples' self-loop weight rows. -/
theorem V_selfloop (c : Dev nD) : (V m c main_v65 : S1024x207.Idx → EReal)
    = val_main_v68 (F := Ideal) (m ((c : Thread nD τ).loc main_arg3)) (m ((c : Thread nD τ).loc main_arg4)) := by
  dsimp only [Gen.V, Gen.hostOps0]; after_results_simp; rfl

set_option maxHeartbeats 8000000 in
/-- The samples' Laplacians: the slots' Laplacians, narrowed, selected by the samples' slot ids. -/
theorem V_lap (c : Dev nD) : (V m c main_v51 : S1024x207x207.Idx → EReal)
    = Host.gather gather_S288x207x207_S1024x1_S1024x207x207_12_0_n_n_0_1_1207207
        (truncf .bf16 (lapS (adjS (m ((c : Thread nD τ).loc main_arg1))
            (val_main_v22 (F := Ideal) (m ((c : Thread nD τ).loc main_arg5)) (m ((c : Thread nD τ).loc main_arg6)))
            (val_main_v36 (F := Ideal) (m ((c : Thread nD τ).loc main_arg5)) (m ((c : Thread nD τ).loc main_arg6))))
          (val_main_v45 (F := Ideal))) bitsLt_bf16_f32)
        (val_main_v7 (F := Ideal) (m ((c : Thread nD τ).loc main_arg4))) := by
  dsimp only [Gen.V, Gen.hostOps0]; after_results_simp; rfl

end Cert.KernelIdeal.Entry

end
-- ==== Proof.LibGatherSlabs.lean ====
/-
  Whole matrices of a stack taken by a column of integer ids, read at an index.

  `stack[ids]` for a stack `[N, A, B]` of matrices and ids given as an `[E, 1]` column lowers to a `stablehlo.gather`
  whose start index names the stack axis, which is collapsed; a slice is one whole matrix. StableHLO clamps the start
  index into the operand, so matrix `e` of the result is matrix `min (max id 0) (N − 1)` of the stack, where `id` is the
  id word of `e` read as a signed integer: the same row `rowAt` that a gather of rows of a table `[N, D]` by the same
  ids reads, which is what lets a proof set a matrix gathered from a stack beside a row gathered from a table.
-/
import proofs.«172634_j90872918049150_2_alg».proof.Proof.LibGatherRows
import Idealize.ShloMosaic.Lib.ValueIdx

noncomputable section

namespace Cert.Lib.GatherSlabs

open Idealize.ShloMosaic Idealize.ShloMosaic.ValueIdx Cert.Lib.GatherRows

variable {α : Type}

/-- The dimension numbers of `stack[ids]` for a stack `[N, A, B]`, ids `[E, 1]` and a result `[E, A, B]`. -/
abbrev slabDims (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

theorem ne10 : ¬ (1 : Fin 3) ∈ ([0] : List (Fin 3)) := by decide
theorem ne20 : ¬ (2 : Fin 3) ∈ ([0] : List (Fin 3)) := by decide

/-- ENTRY (e, p, q) of the gathered matrices: the stack at the matrix `e`'s id names, entry (p, q). -/
theorem slabs_apply {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (ids : IVec ⟨2, ![E, 1]⟩ w) (e : Fin E) (p : Fin A) (q : Fin B) :
    Host.gather (slabDims N A B E wf) x ids (ix3 e p q) = x (ix3 (rowAt N hN ids e) p q) := by
  unfold Host.gather
  congr 1
  funext a
  refine Fin.ext ?_
  match a with
  | ⟨0, _⟩ =>
    show (slabDims N A B E wf).start (ix3 e p q) ids 0 + (slabDims N A B E wf).batchCoord (ix3 e p q) 0
      + (slabDims N A B E wf).offCoord (ix3 e p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B E wf).startIndexMap from List.mem_singleton.mpr rfl)]
    have hsi : (slabDims N A B E wf).siIdx (ix3 e p q) ⟨List.idxOf (0 : Fin 3) (slabDims N A B E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (slabDims N A B E wf).start (ix3 e p q) ids 1 + (slabDims N A B E wf).batchCoord (ix3 e p q) 1
      + (slabDims N A B E wf).offCoord (ix3 e p q) 1 = p.val
    have hs : (slabDims N A B E wf).start (ix3 e p q) ids 1 = 0 := by
      unfold GatherDims.start
      rw [dif_neg (show (1 : Fin 3) ∉ (slabDims N A B E wf).startIndexMap from ne10)]
    have hk : (1 : Fin 3) ∈ (slabDims N A B E wf).sKept :=
      (GatherDims.mem_sKept _ _).mpr ⟨ne10, List.not_mem_nil⟩
    rw [hs, GatherDims.batchCoord_eq_zero _ _ _ List.not_mem_nil]
    simp only [Nat.zero_add, Nat.add_zero]
    unfold GatherDims.offCoord
    rw [dif_pos hk]
    rfl
  | ⟨2, _⟩ =>
    show (slabDims N A B E wf).start (ix3 e p q) ids 2 + (slabDims N A B E wf).batchCoord (ix3 e p q) 2
      + (slabDims N A B E wf).offCoord (ix3 e p q) 2 = q.val
    have hs : (slabDims N A B E wf).start (ix3 e p q) ids 2 = 0 := by
      unfold GatherDims.start
      rw [dif_neg (show (2 : Fin 3) ∉ (slabDims N A B E wf).startIndexMap from ne20)]
    have hk : (2 : Fin 3) ∈ (slabDims N A B E wf).sKept :=
      (GatherDims.mem_sKept _ _).mpr ⟨ne20, List.not_mem_nil⟩
    rw [hs, GatherDims.batchCoord_eq_zero _ _ _ List.not_mem_nil]
    simp only [Nat.zero_add, Nat.add_zero]
    unfold GatherDims.offCoord
    rw [dif_pos hk]
    rfl

/-- The same for the host operation as a program prints it, with the program's own record of these dimension numbers. -/
theorem slabs_apply_host {N A B E w : Nat} (hN : 0 < N)
    (wf : GatherDims.WF ⟨3, ![N, A, B]⟩ ⟨2, ![E, 1]⟩ ⟨3, ![E, A, B]⟩ [1, 2] [0] [] [0] [] 1 ![1, A, B])
    (d : GatherDims ⟨3, ![N, A, B]⟩ ⟨2, ![E, 1]⟩ ⟨3, ![E, A, B]⟩) (hd : d = slabDims N A B E wf)
    (x : (⟨3, ![N, A, B]⟩ : Shape).Idx → α) (ids : IVec ⟨2, ![E, 1]⟩ w) (e : Fin E) (p : Fin A) (q : Fin B) :
    Host.gather d x ids (ix3 e p q) = x (ix3 (rowAt N hN ids e) p q) := by
  subst hd
  exact slabs_apply hN wf x ids e p q

end Cert.Lib.GatherSlabs

end
-- ==== Proof.KernelRead.lean ====
/-
  The samples' Laplacians as the region finds them, read at an entry.

  Slot s's adjacency entry (a, v) is the pair sums of row s of the weights over the edges and over the reversed edges
  (the zeros the scatters start from add nothing); its Laplacian entry (p, v) is the sum of column p of the adjacency
  times the identity mask at (p, v), minus the adjacency at (p, v); sample b's Laplacian is that of the slot its id
  names. So the array the first window reads is `Diffusion.lapB` of the weights.
-/
import proofs.«172634_j90872918049150_2_alg».proof.Proof.KernelEntry
import proofs.«172634_j90872918049150_2_alg».proof.Proof.Spec
import proofs.«172634_j90872918049150_2_alg».proof.Proof.LibGatherSlabs
import proofs.«172634_j90872918049150_2_alg».proof.Proof.LibScatterPairs
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.TcCoe Idealize.SL.Sem
open Idealize.ShloMosaic.ValueIdx Cert.Diffusion Cert.Lib.ScatterPairs Cert.Lib.GatherRows
open Cert.ReferenceIdeal.Read (val_main_v1 val_main_v7 val_main_v22 val_main_v36 val_main_v45 val_main_v58 val_main_v68)

/-- A spread zero is zero at every index. -/
theorem zeros_apply {s : Shape} (h : S_.BroadcastsInDim s ![]) (i : s.Idx) :
    (broadcastInDim s ![] h (constant (F := Ideal) S_ .f32 0x00000000#32) i : EReal) = 0 := by
  rw [broadcastInDim_apply _ h _ i (fun a => a.elim0) (fun a => a.elim0), constant_apply, Ideal.ofBits_zero_f32]

/-- Slot s's adjacency at (a, v). -/
theorem adjS_apply (W : FVec Ideal S288x1722 .f32) (I1 I2 : IVec S1722x2 32) (s : Fin 288) (a v : Fin 207) :
    adjS W I1 I2 (ix3 s a v) = adjAt I1 I2 (fun e => W (ix2 s e)) a v := by
  unfold adjS adjAt
  rw [pairs_apply_host scatter_S288x207x207_S1722x2_S288x1722_0_12_12_1.wf scatter_S288x207x207_S1722x2_S288x1722_0_12_12_1 rfl,
    pairs_apply_host scatter_S288x207x207_S1722x2_S288x1722_0_12_12_1.wf scatter_S288x207x207_S1722x2_S288x1722_0_12_12_1 rfl,
    zeros_apply, zero_add]

/-- The sum over the rows of a stack of matrices, at (s, p): the sum of column p of matrix s. -/
theorem colsum_apply (A : FVec Ideal S288x207x207 .f32) (s : Fin 288) (p : Fin 207) :
    Host.reduceAdd A (constant (F := Ideal) S_ .f32 0x00000000#32) reducesTo_S288x207x207_S288x207_d1 h_S_ (ix2 s p)
      = ∑ u : Fin 207, A (ix3 s u p) := by
  simp only [Host.reduceAdd, Ideal.hostReduceAdd_def]
  rw [Ideal.hostReduceAdd_single reducesTo_S288x207x207_S288x207_d1 (by decide)]
  rw [constant_apply, Ideal.ofBits_zero_f32, zero_add]
  refine Finset.sum_congr rfl fun k _ => ?_
  exact congrArg A (funext fun a => Fin.ext (by match a with | ⟨0, _⟩ => rfl | ⟨1, _⟩ => rfl | ⟨2, _⟩ => rfl))

/-- Slot s's Laplacian at (p, v), from its adjacency. -/
theorem lapS_apply (A : FVec Ideal S288x207x207 .f32) (eye : FVec Ideal S207x207 .f32) (s : Fin 288) (p v : Fin 207) :
    lapS A eye (ix3 s p v) = (∑ u : Fin 207, A (ix3 s u p)) * eye (ix2 p v) - A (ix3 s p v) := by
  unfold lapS
  rw [subf_apply, mulf_apply]
  rw [broadcastInDim_apply _ bcast_S288x207x1_S288x207x207_0_1_2 _ (ix3 s p v) (ix3 s p (0 : Fin 1)) (fun a => match a with
    | ⟨0, _⟩ => by show s.val = if (288 : Nat) = 1 then 0 else s.val; rw [if_neg (by decide)]
    | ⟨1, _⟩ => by show p.val = if (207 : Nat) = 1 then 0 else p.val; rw [if_neg (by decide)]
    | ⟨2, _⟩ => by show 0 = if (1 : Nat) = 1 then 0 else v.val; rw [if_pos rfl])]
  rw [broadcastInDim_apply _ bcast_S288x207_S288x207x1_0_1 _ (ix3 s p (0 : Fin 1)) (ix2 s p) (fun a => match a with
    | ⟨0, _⟩ => by show s.val = if (288 : Nat) = 1 then 0 else s.val; rw [if_neg (by decide)]
    | ⟨1, _⟩ => by show p.val = if (207 : Nat) = 1 then 0 else p.val; rw [if_neg (by decide)])]
  rw [broadcastInDim_apply _ bcast_S1x207x207_S288x207x207_0_1_2 _ (ix3 s p v) (ix3 (0 : Fin 1) p v) (fun a => match a with
    | ⟨0, _⟩ => by show 0 = if (1 : Nat) = 1 then 0 else s.val; rw [if_pos rfl]
    | ⟨1, _⟩ => by show p.val = if (207 : Nat) = 1 then 0 else p.val; rw [if_neg (by decide)]
    | ⟨2, _⟩ => by show v.val = if (207 : Nat) = 1 then 0 else v.val; rw [if_neg (by decide)])]
  rw [broadcastInDim_apply _ bcast_S207x207_S1x207x207_1_2 _ (ix3 (0 : Fin 1) p v) (ix2 p v) (fun a => match a with
    | ⟨0, _⟩ => by show p.val = if (207 : Nat) = 1 then 0 else p.val; rw [if_neg (by decide)]
    | ⟨1, _⟩ => by show v.val = if (207 : Nat) = 1 then 0 else v.val; rw [if_neg (by decide)])]
  rw [colsum_apply]

variable (m : (ℓ : Loc nD τ sig) → Buf (Elt Ideal) ℓ)

/-- THE SAMPLES' LAPLACIANS as the region finds them. -/
theorem V_lap_eq (c : Dev nD) : (V m c main_v51 : S1024x207x207.Idx → EReal)
    = lapB (m ((c : Thread nD τ).loc main_arg1))
        (val_main_v22 (F := Ideal) (m ((c : Thread nD τ).loc main_arg5)) (m ((c : Thread nD τ).loc main_arg6)))
        (val_main_v36 (F := Ideal) (m ((c : Thread nD τ).loc main_arg5)) (m ((c : Thread nD τ).loc main_arg6)))
        (val_main_v45 (F := Ideal)) (val_main_v7 (F := Ideal) (m ((c : Thread nD τ).loc main_arg4))) := by
  rw [V_lap m c]
  funext i
  obtain ⟨b, p, v, rfl⟩ : ∃ (b : Fin 1024) (p v : Fin 207), i = ix3 b p v := ⟨i 0, i 1, i 2, eq_ix3 i⟩
  rw [Cert.Lib.GatherSlabs.slabs_apply_host (by decide : 0 < 288)
    gather_S288x207x207_S1024x1_S1024x207x207_12_0_n_n_0_1_1207207.wf
    gather_S288x207x207_S1024x1_S1024x207x207_12_0_n_n_0_1_1207207 rfl]
  rw [truncf_apply, lapS_apply, lapB_ix3]
  unfold lapAt
  simp only [adjS_apply]

end Cert.KernelIdeal.Entry

end
-- ==== Proof.RefRead.lean ====
/-
  The other program's result, read at an entry: it is `Diffusion.combine` of the same four arrays.

  That program selects each sample's row of edge weights first and scatters the 1024 selected rows into 1024
  adjacency matrices. A scatter's entry (b, a, v) is a sum over the edges of row b of its updates alone, and row b of
  the selected weights is the weight row of the slot sample b's id names: so its adjacency, hence its Laplacian, is
  the one the first program selects out of the 288 it built (`lap_apply`). It then multiplies the Laplacian into the
  sample, adds the bias row, adds the sample, and adds the self-loop row times the sample: the second arrangement of
  `Diffusion.combine_alt`, equal to the first for real samples and self-loop weights.
-/
import proofs.«172634_j90872918049150_2_alg».proof.Proof.Gen.ReferenceIdeal.Read
import proofs.«172634_j90872918049150_2_alg».proof.Proof.Spec
import proofs.«172634_j90872918049150_2_alg».proof.Proof.LibScatterPairs
import proofs.«172634_j90872918049150_2_alg».proof.Proof.LibGatherRows
import proofs.«172634_j90872918049150_2_alg».proof.Proof.LibOnePassVariance
import Idealize.ShloMosaic.Lib.Pipeline.Value
import Idealize.ShloMosaic.Lib.ValueIdx
import Idealize.ShloMosaic.PureOps.Ideal.Laws

noncomputable section

open scoped BigOperators

namespace Cert.ReferenceIdeal.Bridge

open Cert.ReferenceIdeal Cert.ReferenceIdeal.Gen Cert.ReferenceIdeal.Read
open Idealize.ShloMosaic Idealize.ShloMosaic.TcCoe Idealize.SL.Sem
open Idealize.ShloMosaic.ValueIdx Cert.Diffusion Cert.Lib.ScatterPairs Cert.Lib.GatherRows Cert.Lib.OnePassVariance

variable (x0 : FVec Ideal S1024x2x207x64 .f32) (x1 : FVec Ideal S288x1722 .f32) (x2 x3 : FVec Ideal S288x207 .f32)
variable (x4 : IVec S1024 32) (x5 x6 : IVec S1722 32)

/-- Row b of the selected weights is the weight row of the slot sample b's id names. -/
theorem weights_apply (b : Fin 1024) (e : Fin 1722) :
    val_main_v8 (F := Ideal) x1 x4 (ix2 b e) = x1 (ix2 (rowAt 288 (by decide) (val_main_v7 (F := Ideal) x4) b) e) := by
  unfold val_main_v8
  exact rows_apply_host (by decide) gather_S288x1722_S1024x1_S1024x1722_1_0_n_n_0_1_11722.wf
    gather_S288x1722_S1024x1_S1024x1722_1_0_n_n_0_1_11722 rfl x1 (val_main_v7 (F := Ideal) x4) b e

/-- Sample b's adjacency at (a, v): the pair sums of its slot's weight row. -/
theorem adj_apply (b : Fin 1024) (a v : Fin 207) :
    val_main_v37 (F := Ideal) x1 x4 x5 x6 (ix3 b a v)
      = adjAt (val_main_v22 (F := Ideal) x5 x6) (val_main_v36 (F := Ideal) x5 x6)
          (fun e => x1 (ix2 (rowAt 288 (by decide) (val_main_v7 (F := Ideal) x4) b) e)) a v := by
  unfold val_main_v37 val_main_v23 adjAt
  rw [pairs_apply_host scatter_S1024x207x207_S1722x2_S1024x1722_0_12_12_1.wf scatter_S1024x207x207_S1722x2_S1024x1722_0_12_12_1 rfl,
    pairs_apply_host scatter_S1024x207x207_S1722x2_S1024x1722_0_12_12_1.wf scatter_S1024x207x207_S1722x2_S1024x1722_0_12_12_1 rfl]
  rw [val_main_v9_apply, val_main_cst_apply]
  simp only [Ideal.ofBits_def, Ideal.ofBits_zero_f32, zero_add, weights_apply]

/-- Sample b's Laplacian at (p, v) is the selected slot's. -/
theorem lap_apply (b : Fin 1024) (p v : Fin 207) :
    val_main_v50 (F := Ideal) x1 x4 x5 x6 (ix3 b p v)
      = lapB x1 (val_main_v22 (F := Ideal) x5 x6) (val_main_v36 (F := Ideal) x5 x6) (val_main_v45 (F := Ideal))
          (val_main_v7 (F := Ideal) x4) (ix3 b p v) := by
  rw [lapB_ix3]
  unfold lapAt
  rw [val_main_v50_apply, val_main_v49_apply, val_main_v47_apply, val_main_v39_apply, val_main_v38_apply,
    val_main_v48_apply, val_main_v46_apply, val_main_cst_9_apply]
  have e1 : ∀ k : Fin 207, idx_main_v38 (idx_main_v39 (idx_main_v47 (ix3 b p v))) k = ix3 b k p := fun k =>
    funext fun a => Fin.ext (by match a with | ⟨0, _⟩ => rfl | ⟨1, _⟩ => rfl | ⟨2, _⟩ => rfl)
  have e2 : idx_main_v46 (idx_main_v48 (ix3 b p v)) = ix2 p v :=
    funext fun a => Fin.ext (by match a with | ⟨0, _⟩ => rfl | ⟨1, _⟩ => rfl)
  simp only [Ideal.subf_def, Ideal.mulf_def, Ideal.ofBits_def, Ideal.ofBits_zero_f32, zero_add, e1, e2, adj_apply]

/-- THE RESULT of the other program is `combine` of the per-sample Laplacians, the samples and the selected rows, when the
    samples and the self-loop weights are real numbers. -/
theorem result_eq (hx : ∀ i, IsReal (x0 i)) (hw : ∀ i, IsReal (x3 i)) :
    val_main_v73 (F := Ideal) x0 x1 x2 x3 x4 x5 x6
      = combine (lapB x1 (val_main_v22 (F := Ideal) x5 x6) (val_main_v36 (F := Ideal) x5 x6) (val_main_v45 (F := Ideal))
            (val_main_v7 (F := Ideal) x4))
          (val_main_v1 (F := Ideal) x0) (val_main_v58 (F := Ideal) x2 x4) (val_main_v68 (F := Ideal) x3 x4) := by
  funext i
  obtain ⟨b, p, l, rfl⟩ : ∃ (b : Fin 1024) (p : Fin 207) (l : Fin 64), i = ix3 b p l := ⟨i 0, i 1, i 2, eq_ix3 i⟩
  have hX : IsReal (val_main_v1 (F := Ideal) x0 (ix3 b p l)) := by
    rw [val_main_v1_apply, val_main_v0_apply]; exact hx _
  have hW : IsReal (val_main_v68 (F := Ideal) x3 x4 (ix2 b p)) := by
    unfold val_main_v68
    rw [rows_apply_host (by decide) gather_S288x207_S1024x1_S1024x207_1_0_n_n_0_1_1207.wf
      gather_S288x207_S1024x1_S1024x207_1_0_n_n_0_1_1207 rfl]
    exact hw _
  rw [combine_ix3]
  refine Eq.trans ?_ (combine_alt _ _ _ _ b p l hX hW)
  rw [val_main_v73_apply, val_main_v72_apply, val_main_v61_apply, val_main_v51_apply, val_main_v60_apply,
    val_main_v59_apply, val_main_v71_apply, val_main_v70_apply, val_main_v69_apply]
  have el : ∀ k : Fin 207, lidx_main_v51 (ix3 b p l) k = ix3 b p k := fun k =>
    funext fun a => Fin.ext (by match a with | ⟨0, _⟩ => rfl | ⟨1, _⟩ => rfl | ⟨2, _⟩ => rfl)
  have er : ∀ k : Fin 207, ridx_main_v51 (ix3 b p l) k = ix3 b k l := fun k =>
    funext fun a => Fin.ext (by match a with | ⟨0, _⟩ => rfl | ⟨1, _⟩ => rfl | ⟨2, _⟩ => rfl)
  have eb : idx_main_v59 (idx_main_v60 (ix3 b p l)) = ix2 b p :=
    funext fun a => Fin.ext (by match a with | ⟨0, _⟩ => rfl | ⟨1, _⟩ => rfl)
  have ew : idx_main_v69 (idx_main_v70 (ix3 b p l)) = ix2 b p :=
    funext fun a => Fin.ext (by match a with | ⟨0, _⟩ => rfl | ⟨1, _⟩ => rfl)
  simp only [Ideal.addf_def, Ideal.mulf_def, el, er, eb, ew, lap_apply]

end Cert.ReferenceIdeal.Bridge

end
-- ==== Proof.LibFinitePre.lean ====
/-
  From a finiteness test to real entries, on the extended reals.

  The test  all (|x| < +∞)  over an array of extended reals, as a host program writes it (the absolute value, a comparison
  with the float pattern of +∞ spread over the array, and an and-reduction of the resulting bits into one bit), is true
  exactly when no entry is +∞ or −∞, that is when every entry is a real number: |x| = max x (−x) is +∞ at both
  infinities and is the real |r| at a real r.
-/
import proofs.«172634_j90872918049150_2_alg».proof.Proof.LibOnePassVariance
import Idealize.ShloMosaic.PureOps.Ideal
import Idealize.ShloMosaic.Lib.ReduceAll
import Idealize.ShloMosaic.Lib.ValueIdx

noncomputable section

namespace Cert.Lib.FinitePre

open Idealize.ShloMosaic Idealize.ShloMosaic.ValueIdx Cert.Lib.OnePassVariance

/-- The float pattern 0x7F800000 denotes +∞. -/
theorem ofBits_inf : Ideal.ofBits .f32 0x7F800000#32 = (⊤ : EReal) := by
  simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- The comparison bit of  |x| < +∞  being set says x is a real number. -/
theorem isReal_of_cmp (x : EReal) (h : Ideal.cmp .olt (max x (-x)) (Ideal.ofBits .f32 0x7F800000#32) = 1#1) : IsReal x := by
  rw [ofBits_inf] at h
  refine isReal_of_abs_lt_top x ?_
  unfold Ideal.cmp at h
  by_contra hn
  simp [hn] at h

instance : Subsingleton (⟨0, ![]⟩ : Shape).Idx := ⟨fun a b => funext fun d => d.elim0⟩

/-- The whole test: if the and-reduction of the bits  |x i| < +∞  over all of an array is 1, every entry is real. -/
theorem allReal_of_all {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (init : (⟨0, ![]⟩ : Shape).Idx → BitVec 1)
    (e : Host.reduce IntOp.andi
        (cmpf .olt (Host.absf x) (broadcastInDim s ![] hb (constant (F := Ideal) ⟨0, ![]⟩ .f32 0x7F800000#32))) init h hu ix0 = 1#1) :
    ∀ i, IsReal (x i) := fun i =>
  isReal_of_cmp (x i) (Host.reduce_andi_all _ init h hu ix0 e i)

end Cert.Lib.FinitePre

end
-- ==== Proof.Finite.lean ====
/-
  What the precondition gives: every sample and every self-loop weight is a real number.

  The precondition is the conjunction of four tests, one per float input, each "all entries have absolute value below
  +∞"; the conjunction being 1, the first test (the input holding the samples) and the fourth (the self-loop weights)
  are 1, and an extended real of absolute value below +∞ is a real number. The two other float inputs (the edge weights
  and the bias) may be anything: the law that joins the two programs does not need them real.
-/
import proofs.«172634_j90872918049150_2_alg».proof.Pre_finite_inputs
import proofs.«172634_j90872918049150_2_alg».proof.Proof.Gen.Pre_finite_inputs
import proofs.«172634_j90872918049150_2_alg».proof.Proof.LibFinitePre
import Idealize.ShloMosaic.Lib.Affine
import Idealize.ShloMosaic.Lib.ValueIdx

noncomputable section

namespace Cert.Pre_finite_inputs.Reals

open Cert.Pre_finite_inputs Cert.Pre_finite_inputs.Facts Idealize.ShloMosaic Idealize.ShloMosaic.ValueIdx
open Cert.Lib.OnePassVariance Cert.Lib.FinitePre

/-- Under the precondition the samples' input and the self-loop weights hold real numbers. -/
theorem reals (a0 : FVec Ideal S1024x2x207x64 .f32) (a1 : FVec Ideal S288x1722 .f32) (a2 a3 : FVec Ideal S288x207 .f32)
    (a4 : IVec S1024 32) (a5 a6 : IVec S1722 32)
    (h : fn (F := Ideal) a0 a1 a2 a3 a4 a5 a6 = fun _ => 1#1) :
    (∀ i, IsReal (a0 i)) ∧ (∀ i, IsReal (a3 i)) := by
  have h0 := congrFun h ix0
  dsimp only [fn, fn_part1] at h0
  obtain ⟨h123, h4⟩ := IntOp.andi_eq_one.mp h0
  obtain ⟨h12, -⟩ := IntOp.andi_eq_one.mp h123
  obtain ⟨h1, -⟩ := IntOp.andi_eq_one.mp h12
  exact ⟨allReal_of_all a0 bcast_S_S1024x2x207x64 reducesTo_S1024x2x207x64_S_d0_1_2_3 h_S_ _ h1,
    allReal_of_all a3 bcast_S_S288x207 reducesTo_S288x207_S_d0_1 h_S_ _ h4⟩

end Cert.Pre_finite_inputs.Reals

end
-- ==== Proof.lean ====
/-
  Graph diffusion with per-slot edge weights: a kernel that builds the 288 slots' Laplacians once and selects one per
  sample, against a reference that selects each sample's edge weights and builds 1024 Laplacians.

  For sample b with slot s = ind[b] (read signed, clamped into the 288 slots), weights w = weight_diff[s, ·] over the
  1722 edges (i_e, j_e):  A(a, v) = Σ_e w_e·1[(i_e, j_e) = (a, v)] + Σ_e w_e·1[(j_e, i_e) = (a, v)],
  L(p, v) = (Σ_u A(u, p))·1[p = v] − A(p, v), and

      out(b, p, l) = (Σ_v L(p, v)·x(b, v, l) + bias[s, p]) + x(b, p, l)·(1 + wsl[s, p])                  (the kernel)
                   = ((Σ_v L(p, v)·x(b, v, l) + bias[s, p]) + x(b, p, l)) + wsl[s, p]·x(b, p, l)          (the reference)

  on the extended reals. Two facts join the programs. (1) An accumulating scatter's entry is a sum over the edges of ONE
  row of its updates, so scattering the selected rows of the weights is selecting the scattered matrices: the
  reference's 1024 Laplacians are the kernel's 288, selected by the same ids (Proof/LibScatterPairs.lean,
  Proof/KernelRead.lean, Proof/RefRead.lean). (2) x·(1 + w) = x + w·x, which needs x and w real: that is where the
  precondition is used, and only for the samples and the self-loop weights (Proof/Spec.lean, Proof/Finite.lean).
  The kernel's grid handles 32 samples per point, each point writing its own 32 rows of the output
  (Proof/KernelBody.lean, Proof/KernelBlocks.lean); the arrays its windows read are host operations of the arguments
  (Proof/KernelEntry.lean). The idealization pass rewrote nothing, so `preserves` has no conjunct.
-/
import proofs.«172634_j90872918049150_2_alg».proof.Defs
import proofs.«172634_j90872918049150_2_alg».proof.Proof.Gen.Kernel
import proofs.«172634_j90872918049150_2_alg».proof.Proof.Gen.Kernel.Skeleton
import proofs.«172634_j90872918049150_2_alg».proof.Proof.Gen.Kernel.Launch
import proofs.«172634_j90872918049150_2_alg».proof.Proof.Gen.Kernel.Points
import proofs.«172634_j90872918049150_2_alg».proof.Proof.Gen.Kernel.Frame
import proofs.«172634_j90872918049150_2_alg».proof.Proof.Gen.KernelIdeal
import proofs.«172634_j90872918049150_2_alg».proof.Proof.Gen.KernelIdeal.Skeleton
import proofs.«172634_j90872918049150_2_alg».proof.Proof.Gen.KernelIdeal.Launch
import proofs.«172634_j90872918049150_2_alg».proof.Proof.Gen.KernelIdeal.Points
import proofs.«172634_j90872918049150_2_alg».proof.Proof.Gen.KernelIdeal.Frame
import proofs.«172634_j90872918049150_2_alg».proof.Proof.Gen.ReferenceIdeal
import proofs.«172634_j90872918049150_2_alg».proof.Proof.Gen.Pre_finite_inputs
import proofs.«172634_j90872918049150_2_alg».proof.Proof.Gen.KernelIdeal.Value
import proofs.«172634_j90872918049150_2_alg».proof.Proof.Gen.ReferenceIdeal.Run
import proofs.«172634_j90872918049150_2_alg».proof.Proof.Gen.ReferenceIdeal.Read
import proofs.«172634_j90872918049150_2_alg».proof.Proof.KernelBlocks
import proofs.«172634_j90872918049150_2_alg».proof.Proof.KernelRead
import proofs.«172634_j90872918049150_2_alg».proof.Proof.RefRead
import proofs.«172634_j90872918049150_2_alg».proof.Proof.Finite
import Idealize.ShloMosaic.Adequacy
import Idealize.ShloMosaic.Init

noncomputable section

namespace Cert.Proof

open Idealize.ShloMosaic Idealize.ShloMosaic.TcCoe Idealize.SL.Sem Cert.Diffusion
open Cert.ReferenceIdeal.Read (val_main_v1 val_main_v7 val_main_v22 val_main_v36 val_main_v45 val_main_v58 val_main_v68)

/-- The result both programs end at, as one function of the seven argument arrays. -/
abbrev result (a0 : FVec Ideal Cert.ReferenceIdeal.S1024x2x207x64 .f32) (a1 : FVec Ideal Cert.ReferenceIdeal.S288x1722 .f32)
    (a2 a3 : FVec Ideal Cert.ReferenceIdeal.S288x207 .f32) (a4 : IVec Cert.ReferenceIdeal.S1024 32)
    (a5 a6 : IVec Cert.ReferenceIdeal.S1722 32) : (⟨3, ![1024, 207, 64]⟩ : Shape).Idx → EReal :=
  combine (lapB a1 (val_main_v22 (F := Ideal) a5 a6) (val_main_v36 (F := Ideal) a5 a6) (val_main_v45 (F := Ideal))
      (val_main_v7 (F := Ideal) a4))
    (val_main_v1 (F := Ideal) a0) (val_main_v58 (F := Ideal) a2 a4) (val_main_v68 (F := Ideal) a3 a4)

section Kernel
open Cert.KernelIdeal Cert.KernelIdeal.Gen

variable (m : (ℓ : Loc nD τ sig) → Buf (Elt Ideal) ℓ) (ρ : Dev nD → PrngReg)

/-- The kernel's output array after the run is `result` of its arguments: the blocks' function of the four arrays the
    region reads, each of them read back to the arguments. -/
theorem kernel_final (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [Cert.KernelIdeal.Blocks.final, Cert.KernelIdeal.Entry.V_lap_eq, Cert.KernelIdeal.Entry.V_samples,
    Cert.KernelIdeal.Entry.V_bias, Cert.KernelIdeal.Entry.V_selfloop]

/-- The kernel's run, its result named. -/
theorem kernel_run : θ_run defs (onTc (τ := τ) (main (F := Ideal))) ⟨m, fun _ => 0, ρ⟩ fun r => ∀ c : Dev nD,
      r.2.mem ((c : Thread nD τ).loc main_v66)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (kernel_final m c), (h c).2⟩)
    (Cert.KernelIdeal.Value.run_blocks (F := Ideal) m ρ)

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- At the ideal instance both programs end at `result` of arguments that agree: the kernel by its blocks, the reference
    by its run read one operation at a time, the samples and the self-loop weights real by the precondition. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Reals.reals _ _ _ _ _ _ _ (hpre c)
  rw [Cert.ReferenceIdeal.Read.val_main_v73_eq, (hagree c).1, (hagree c).2.1, (hagree c).2.2.1, (hagree c).2.2.2.1,
    (hagree c).2.2.2.2.1, (hagree c).2.2.2.2.2.1, (hagree c).2.2.2.2.2.2]
  exact Cert.ReferenceIdeal.Bridge.result_eq _ _ _ _ _ _ _ hx hw

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
